-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x6400000 : Shape := ⟨2, ![2, 6400000]⟩
abbrev S16x16 : Shape := ⟨2, ![16, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S16 .f32) (main_arg6 : FVec F S16x1 .f32) (main_arg7 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg6
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x16 .f32) (main_arg1 : IVec S2x6400000 32) (main_arg2 : FVec F S16x16 .f32) (main_arg3 : FVec F S16 .f32) (main_arg4 : FVec F S16x16 .f32) (main_arg5 : FVec F S16 .f32) (main_arg6 : FVec F S16x1 .f32) (main_arg7 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x16 .f32 := Host.absf main_arg2
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S100000x16 : Shape := ⟨2, ![100000, 16]⟩
abbrev S2x6400000 : Shape := ⟨2, ![2, 6400000]⟩
abbrev S16x16 : Shape := ⟨2, ![16, 16]⟩
abbrev S16 : Shape := ⟨1, ![16]⟩
abbrev S16x1 : Shape := ⟨2, ![16, 1]⟩
abbrev S1 : Shape := ⟨1, ![1]⟩
abbrev S1x6400000 : Shape := ⟨2, ![1, 6400000]⟩
abbrev S6400000 : Shape := ⟨1, ![6400000]⟩
abbrev S100000 : Shape := ⟨1, ![100000]⟩
abbrev S6500000 : Shape := ⟨1, ![6500000]⟩
abbrev S_ : Shape := ⟨0, ![]⟩
abbrev S6500000x1 : Shape := ⟨2, ![6500000, 1]⟩
abbrev S10000x16 : Shape := ⟨2, ![10000, 16]⟩
abbrev S6500000x16 : Shape := ⟨2, ![6500000, 16]⟩
abbrev S5000x16 : Shape := ⟨2, ![5000, 16]⟩
abbrev S5000x1 : Shape := ⟨2, ![5000, 1]⟩
abbrev S1x16 : Shape := ⟨2, ![1, 16]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 87
  | .vmem => 28
  | .smem => 0
  | _ => 0

abbrev bufTy : (tb : Table) → Fin (tcTables nBuf tb) → BufTy
  | .hbm, ⟨0, _⟩ => ⟨S100000x16, .f32⟩
  | .hbm, ⟨1, _⟩ => ⟨S2x6400000, .i32⟩
  | .hbm, ⟨2, _⟩ => ⟨S16x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S100000, .i32⟩
  | .hbm, ⟨13, _⟩ => ⟨S6500000, .i32⟩
  | .hbm, ⟨14, _⟩ => ⟨S6500000, .i32⟩
  | .hbm, ⟨15, _⟩ => ⟨S_, .f32⟩
  | .hbm, ⟨16, _⟩ => ⟨S6500000, .f32⟩
  | .hbm, ⟨17, _⟩ => ⟨S_, .f32⟩
  | .hbm, ⟨18, _⟩ => ⟨S100000, .f32⟩
  | .hbm, ⟨19, _⟩ => ⟨S6500000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S6500000, .i32⟩
  | .hbm, ⟨31, _⟩ => ⟨S6500000, .i1⟩
  | .hbm, ⟨32, _⟩ => ⟨S_, .i32⟩
  | .hbm, ⟨33, _⟩ => ⟨S6500000, .i32⟩
  | .hbm, ⟨34, _⟩ => ⟨S6500000, .i32⟩
  | .hbm, ⟨35, _⟩ => ⟨S6500000, .i32⟩
  | .hbm, ⟨36, _⟩ => ⟨S6500000x1, .i32⟩
  | .hbm, ⟨37, _⟩ => ⟨S6500000, .f32⟩
  | .hbm, ⟨38, _⟩ => ⟨S_, .i32⟩
  | .hbm, ⟨39, _⟩ => ⟨S6500000, .i32⟩
  | .hbm, ⟨40, _⟩ => ⟨S6500000, .i1⟩
  | .hbm, ⟨41, _⟩ => ⟨S_, .i32⟩
  | .hbm, ⟨42, _⟩ => ⟨S6500000, .i32⟩
  | .hbm, ⟨43, _⟩ => ⟨S6500000, .i32⟩
  | .hbm, ⟨44, _⟩ => ⟨S6500000, .i32⟩
  | .hbm, ⟨45, _⟩ => ⟨S6500000x1, .i32⟩
  | .hbm, ⟨46, _⟩ => ⟨S6500000, .f32⟩
  | .hbm, ⟨47, _⟩ => ⟨S6500000, .f32⟩
  | .hbm, ⟨48, _⟩ => ⟨S6500000x1, .f32⟩
  | .hbm, ⟨49, _⟩ => ⟨S100000x16, .f32⟩
  | .hbm, ⟨50, _⟩ => ⟨S_, .i32⟩
  | .hbm, ⟨51, _⟩ => ⟨S6500000, .i32⟩
  | .hbm, ⟨52, _⟩ => ⟨S6500000, .i1⟩
  | .hbm, ⟨53, _⟩ => ⟨S_, .i32⟩
  | .hbm, ⟨54, _⟩ => ⟨S6500000, .i32⟩
  | .hbm, ⟨55, _⟩ => ⟨S6500000, .i32⟩
  | .hbm, ⟨56, _⟩ => ⟨S6500000, .i32⟩
  | .hbm, ⟨57, _⟩ => ⟨S6500000x1, .i32⟩
  | .hbm, ⟨58, _⟩ => ⟨S6500000x16, .f32⟩
  | .hbm, ⟨59, _⟩ => ⟨S6500000x16, .f32⟩
  | .hbm, ⟨60, _⟩ => ⟨S_, .f32⟩
  | .hbm, ⟨61, _⟩ => ⟨S100000x16, .f32⟩
  | .hbm, ⟨62, _⟩ => ⟨S6500000x1, .i32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S100000x16, .f32⟩
  | .hbm, ⟨67, _⟩ => ⟨S100000x16, .f32⟩
  | .hbm, ⟨68, _⟩ => ⟨S_, .i32⟩
  | .hbm, ⟨69, _⟩ => ⟨S6500000, .i32⟩
  | .hbm, ⟨70, _⟩ => ⟨S6500000, .i1⟩
  | .hbm, ⟨71, _⟩ => ⟨S_, .i32⟩
  | .hbm, ⟨72, _⟩ => ⟨S6500000, .i32⟩
  | .hbm, ⟨73, _⟩ => ⟨S6500000, .i32⟩
  | .hbm, ⟨74, _⟩ => ⟨S6500000, .i32⟩
  | .hbm, ⟨75, _⟩ => ⟨S6500000x1, .i32⟩
  | .hbm, ⟨76, _⟩ => ⟨S6500000x16, .f32⟩
  | .hbm, ⟨77, _⟩ => ⟨S6500000x16, .f32⟩
  | .hbm, ⟨78, _⟩ => ⟨S_, .f32⟩
  | .hbm, ⟨79, _⟩ => ⟨S100000x16, .f32⟩
  | .hbm, ⟨80, _⟩ => ⟨S6500000x1, .i32⟩
  | .hbm, ⟨81, _⟩ => ⟨S100000x16, .f32⟩
  | .hbm, ⟨82, _⟩ => ⟨S1x16, .f32⟩
  | .hbm, ⟨83, _⟩ => ⟨S100000x16, .f32⟩
  | .hbm, ⟨84, _⟩ => ⟨S100000x16, .f32⟩
  | .hbm, ⟨85, _⟩ => ⟨S1x1, .f32⟩
  | .hbm, ⟨86, _⟩ => ⟨S100000x1, .f32⟩
  | .local _ .vmem, ⟨0, _⟩ => ⟨S10000x16, .f32⟩
  | .local _ .vmem, ⟨1, _⟩ => ⟨S10000x16, .f32⟩
  | .local _ .vmem, ⟨2, _⟩ => ⟨S16x16, .f32⟩
  | .local _ .vmem, ⟨3, _⟩ => ⟨S10000x16, .f32⟩
  | .local _ .vmem, ⟨4, _⟩ => ⟨S10000x16, .f32⟩
  | .local _ .vmem, ⟨5, _⟩ => ⟨S5000x16, .f32⟩
  | .local _ .vmem, ⟨6, _⟩ => ⟨S5000x16, .f32⟩
  | .local _ .vmem, ⟨7, _⟩ => ⟨S5000x1, .f32⟩
  | .local _ .vmem, ⟨8, _⟩ => ⟨S5000x1, .f32⟩
  | .local _ .vmem, ⟨9, _⟩ => ⟨S5000x16, .f32⟩
  | .local _ .vmem, ⟨10, _⟩ => ⟨S5000x16, .f32⟩
  | .local _ .vmem, ⟨11, _⟩ => ⟨S10000x16, .f32⟩
  | .local _ .vmem, ⟨12, _⟩ => ⟨S10000x16, .f32⟩
  | .local _ .vmem, ⟨13, _⟩ => ⟨S16x16, .f32⟩
  | .local _ .vmem, ⟨14, _⟩ => ⟨S10000x16, .f32⟩
  | .local _ .vmem, ⟨15, _⟩ => ⟨S10000x16, .f32⟩
  | .local _ .vmem, ⟨16, _⟩ => ⟨S5000x16, .f32⟩
  | .local _ .vmem, ⟨17, _⟩ => ⟨S5000x16, .f32⟩
  | .local _ .vmem, ⟨18, _⟩ => ⟨S5000x1, .f32⟩
  | .local _ .vmem, ⟨19, _⟩ => ⟨S5000x1, .f32⟩
  | .local _ .vmem, ⟨20, _⟩ => ⟨S5000x16, .f32⟩
  | .local _ .vmem, ⟨21, _⟩ => ⟨S5000x16, .f32⟩
  | .local _ .vmem, ⟨22, _⟩ => ⟨S10000x16, .f32⟩
  | .local _ .vmem, ⟨23, _⟩ => ⟨S10000x16, .f32⟩
  | .local _ .vmem, ⟨24, _⟩ => ⟨S16x1, .f32⟩
  | .local _ .vmem, ⟨25, _⟩ => ⟨S1x1, .f32⟩
  | .local _ .vmem, ⟨26, _⟩ => ⟨S10000x1, .f32⟩
  | .local _ .vmem, ⟨27, _⟩ => ⟨S10000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1300], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1300], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S100000_S6500000_d0 : Shape.Concatenates [S6400000, S100000] S6500000 0
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  shapeCasts_S6500000_S6500000x1 : S6500000.ShapeCasts S6500000x1
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S10000x16_S10000x16 : S10000x16.ShapeCasts S10000x16
  shapeCasts_S1_S1x1 : S1.ShapeCasts S1x1
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S10000x16_S16x16_S10000x16_1_0_0_1_n_n_wf : DotDims.WF S10000x16 S16x16 S10000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S6500000x16.size a
  hwx1_0 : ∀ i : grid1.Coords, EltTy.bits .f32 = 32 ∨ (Rect.block (s := S6500000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S6500000x1.size a
  hwx1_1 : ∀ i : grid1.Coords, EltTy.bits .f32 = 32 ∨ (Rect.block (s := S6500000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S6500000x16.size a
  hwx1_2 : ∀ i : grid1.Coords, EltTy.bits .f32 = 32 ∨ (Rect.block (s := S6500000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S6500000x16.size a
  hwx3_0 : ∀ i : grid3.Coords, EltTy.bits .f32 = 32 ∨ (Rect.block (s := S6500000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S6500000x1.size a
  hwx3_1 : ∀ i : grid3.Coords, EltTy.bits .f32 = 32 ∨ (Rect.block (s := S6500000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S6500000x16.size a
  hwx3_2 : ∀ i : grid3.Coords, EltTy.bits .f32 = 32 ∨ (Rect.block (s := S6500000x16) S5000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S100000x16.size a
  hwx4_0 : ∀ i : grid4.Coords, EltTy.bits .f32 = 32 ∨ (Rect.block (s := S100000x16) S10000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x1.size a ≤ S16x1.size a
  hwx4_1 : ∀ i : grid4.Coords, EltTy.bits .f32 = 32 ∨ (Rect.block (s := S16x1) S16x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S100000x1.size a
  hwx4_3 : ∀ i : grid4.Coords, EltTy.bits .f32 = 32 ∨ (Rect.block (s := S100000x1) S10000x1.size (cc4_transform_3 i) (hinb4_3 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v53) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S10000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x16 : Shape := ⟨2, ![100000, 16]⟩
abbrev S2x6400000 : Shape := ⟨2, ![2, 6400000]⟩
abbrev S16x16 : Shape := ⟨2, ![16, 16]⟩
abbrev S16 : Shape := ⟨1, ![16]⟩
abbrev S16x1 : Shape := ⟨2, ![16, 1]⟩
abbrev S1 : Shape := ⟨1, ![1]⟩
abbrev S1x6400000 : Shape := ⟨2, ![1, 6400000]⟩
abbrev S6400000 : Shape := ⟨1, ![6400000]⟩
abbrev S100000 : Shape := ⟨1, ![100000]⟩
abbrev S6500000 : Shape := ⟨1, ![6500000]⟩
abbrev S_ : Shape := ⟨0, ![]⟩
abbrev S6500000x1 : Shape := ⟨2, ![6500000, 1]⟩
abbrev S6500000x16 : Shape := ⟨2, ![6500000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S100000x16, .f32⟩
  | 1 => ⟨S2x6400000, .i32⟩
  | 2 => ⟨S16x16, .f32⟩
  | 3 => ⟨S16, .f32⟩
  | 4 => ⟨S16x16, .f32⟩
  | 5 => ⟨S16, .f32⟩
  | 6 => ⟨S16x1, .f32⟩
  | 7 => ⟨S1, .f32⟩
  | 8 => ⟨S1x6400000, .i32⟩
  | 9 => ⟨S6400000, .i32⟩
  | 10 => ⟨S1x6400000, .i32⟩
  | 11 => ⟨S6400000, .i32⟩
  | 12 => ⟨S100000, .i32⟩
  | 13 => ⟨S6500000, .i32⟩
  | 14 => ⟨S6500000, .i32⟩
  | 15 => ⟨S_, .f32⟩
  | 16 => ⟨S6500000, .f32⟩
  | 17 => ⟨S_, .f32⟩
  | 18 => ⟨S100000, .f32⟩
  | 19 => ⟨S6500000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S6500000, .i32⟩
  | 31 => ⟨S6500000, .i1⟩
  | 32 => ⟨S_, .i32⟩
  | 33 => ⟨S6500000, .i32⟩
  | 34 => ⟨S6500000, .i32⟩
  | 35 => ⟨S6500000, .i32⟩
  | 36 => ⟨S6500000x1, .i32⟩
  | 37 => ⟨S6500000, .f32⟩
  | 38 => ⟨S_, .i32⟩
  | 39 => ⟨S6500000, .i32⟩
  | 40 => ⟨S6500000, .i1⟩
  | 41 => ⟨S_, .i32⟩
  | 42 => ⟨S6500000, .i32⟩
  | 43 => ⟨S6500000, .i32⟩
  | 44 => ⟨S6500000, .i32⟩
  | 45 => ⟨S6500000x1, .i32⟩
  | 46 => ⟨S6500000, .f32⟩
  | 47 => ⟨S6500000, .f32⟩
  | 48 => ⟨S100000x16, .f32⟩
  | 49 => ⟨S6500000x1, .f32⟩
  | 50 => ⟨S_, .i32⟩
  | 51 => ⟨S6500000, .i32⟩
  | 52 => ⟨S6500000, .i1⟩
  | 53 => ⟨S_, .i32⟩
  | 54 => ⟨S6500000, .i32⟩
  | 55 => ⟨S6500000, .i32⟩
  | 56 => ⟨S6500000, .i32⟩
  | 57 => ⟨S6500000x1, .i32⟩
  | 58 => ⟨S6500000x16, .f32⟩
  | 59 => ⟨S6500000x16, .f32⟩
  | 60 => ⟨S6500000x16, .f32⟩
  | 61 => ⟨S_, .f32⟩
  | 62 => ⟨S100000x16, .f32⟩
  | 63 => ⟨S6500000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000, .i32⟩
  | 72 => ⟨S6500000, .i32⟩
  | 73 => ⟨S6500000, .i32⟩
  | 74 => ⟨S_, .f32⟩
  | 75 => ⟨S6500000, .f32⟩
  | 76 => ⟨S_, .f32⟩
  | 77 => ⟨S100000, .f32⟩
  | 78 => ⟨S6500000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S6500000, .i32⟩
  | 90 => ⟨S6500000, .i1⟩
  | 91 => ⟨S_, .i32⟩
  | 92 => ⟨S6500000, .i32⟩
  | 93 => ⟨S6500000, .i32⟩
  | 94 => ⟨S6500000, .i32⟩
  | 95 => ⟨S6500000x1, .i32⟩
  | 96 => ⟨S6500000, .f32⟩
  | 97 => ⟨S_, .i32⟩
  | 98 => ⟨S6500000, .i32⟩
  | 99 => ⟨S6500000, .i1⟩
  | 100 => ⟨S_, .i32⟩
  | 101 => ⟨S6500000, .i32⟩
  | 102 => ⟨S6500000, .i32⟩
  | 103 => ⟨S6500000, .i32⟩
  | 104 => ⟨S6500000x1, .i32⟩
  | 105 => ⟨S6500000, .f32⟩
  | 106 => ⟨S6500000, .f32⟩
  | 107 => ⟨S100000x16, .f32⟩
  | 108 => ⟨S6500000x1, .f32⟩
  | 109 => ⟨S_, .i32⟩
  | 110 => ⟨S6500000, .i32⟩
  | 111 => ⟨S6500000, .i1⟩
  | 112 => ⟨S_, .i32⟩
  | 113 => ⟨S6500000, .i32⟩
  | 114 => ⟨S6500000, .i32⟩
  | 115 => ⟨S6500000, .i32⟩
  | 116 => ⟨S6500000x1, .i32⟩
  | 117 => ⟨S6500000x16, .f32⟩
  | 118 => ⟨S6500000x16, .f32⟩
  | 119 => ⟨S6500000x16, .f32⟩
  | 120 => ⟨S_, .f32⟩
  | 121 => ⟨S100000x16, .f32⟩
  | 122 => ⟨S6500000x1, .i32⟩
  | 123 => ⟨S100000x16, .f32⟩
  | 124 => ⟨S1x16, .f32⟩
  | 125 => ⟨S100000x16, .f32⟩
  | 126 => ⟨S100000x16, .f32⟩
  | 127 => ⟨S100000x1, .f32⟩
  | _ => ⟨S100000x16, .f32⟩

abbrev hbmTy0_1 (i : Nat) : BufTy := match i % 128 with
  | 0 => ⟨S1x1, .f32⟩
  | 1 => ⟨S100000x1, .f32⟩
  | 2 => ⟨S100000x1, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_17 : Ref sig .tc := ⟨.hbm, 109, rfl⟩
abbrev main_v76 : Ref sig .tc := ⟨.hbm, 110, rfl⟩
abbrev main_v77 : Ref sig .tc := ⟨.hbm, 111, rfl⟩
abbrev main_c_18 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S100000_S6500000_d0 : Shape.Concatenates [S6400000, S100000] S6500000 0
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x16_S16x16_S100000x16_1_0_0_1_n_n_wf : DotDims.WF S100000x16 S16x16 S100000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x1_S100000x1_1_0_0_1_n_n_wf : DotDims.WF S100000x16 S16x1 S100000x1 [1] [0] [0] [1] [] []

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KernelRun.lean ====
/-
  The idealized kernel's run, with its result named.

  The program is five kernel launches among stretches of host operations. Its frame run ends with every
  buffer of the TensorCore that is not scoped at the contents of the last boundary of the fold through the
  program; here the same run is stated with the result buffer read off that boundary as well as the eight
  arguments.
-/
import proofs.«141900_j18966575579589_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and the
    arguments as launched. -/
theorem run_main : θ_run defs (onTc (τ := τ) (main (F := F))) ⟨m, fun _ => 0, ρ⟩ (fun r => ∀ c : Dev nD,
      r.2.mem ((c.tc : Thread nD τ).loc main_v62) = W12 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v62 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunValue

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibColumnOps.lean ====
/-
  Columns and vectors read at coordinates.

  A vector of A entries and an A × 1 column hold the same numbers: the cast of one to the other, either way, and the
  broadcast_in_dim [A] → [A, 1] along axis 0, read at row a, are the vector at a (the column at (a, 0)). A scalar broadcast to any shape is the scalar everywhere.
  Column k of an A × B matrix, sliced out and recast as a vector, is the matrix at (a, k).
  Six A × 1 columns laid side by side (concatenate, axis 1) form an A × 6 matrix whose entry (a, k) is column k at
  (a, 0); two such columns form an A × 2 matrix likewise.
  A point gather — operand [N, C], start indices [R, 2], both operand axes collapsed, slices of one element — reads at e
  the operand at (row, column), the two components of start index e read signed and clamped into the operand's extents.
  Every statement is over arbitrary extents and spells indices by their coordinates.
-/
import Idealize.ShloMosaic.Lib.ValueIdx
import Idealize.ShloMosaic.Lib.Pipeline.Value

noncomputable section

namespace Cert.LibColumnOps

open Idealize.ShloMosaic Idealize.ShloMosaic.ValueIdx

variable {α : Type}

/-- The one column index. -/
abbrev z1 : Fin 1 := ⟨0, Nat.one_pos⟩

/-- A vector recast as a column, at (a, z): the vector at a. -/
theorem col_of_vec {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have hz : z.val = 0 := by have := z.isLt; omega
  rw [hz]; omega

/-- A column recast as a vector, at a: the column at (a, 0). -/
theorem vec_of_col {A : ℕ} (x : (⟨2, ![A, 1]⟩ : Shape).Idx → α)
    (h : (⟨2, ![A, 1]⟩ : Shape).ShapeCasts ⟨1, ![A]⟩) (a : Fin A) :
    shapeCast ⟨1, ![A]⟩ x h (ix1 a) = x (ix2 a z1) := by
  refine shapeCast_apply x h _ _ ?_
  rw [Shape.rowMajor_val_one, Shape.rowMajor_val_two]
  show a.val * 1 + 0 = a.val
  omega

/-- Column k of a matrix, cut out as an A × 1 slice and recast as a vector, at a: the matrix at (a, k). -/
theorem col_vec {A B : ℕ} (off : ℕ) (M : (⟨2, ![A, B]⟩ : Shape).Idx → α)
    (h : (⟨2, ![A, B]⟩ : Shape).Slices ![0, off] ⟨2, ![A, 1]⟩) (h' : (⟨2, ![A, 1]⟩ : Shape).ShapeCasts ⟨1, ![A]⟩)
    (a : Fin A) (k : Fin B) (hk : k.val = off) :
    shapeCast ⟨1, ![A]⟩ (extractStridedSlice ⟨2, ![A, 1]⟩ ![0, off] M h) h' (ix1 a) = M (ix2 a k) :=
  (vec_of_col _ h' a).trans (extractStridedSlice_apply ![0, off] M h (ix2 a z1) (ix2 a k) fun d => by
    match d with
    | ⟨0, _⟩ => show a.val = 0 + a.val; omega
    | ⟨1, _⟩ => show k.val = off + 0; omega)

/-- A vector broadcast along axis 0 into a column, at (a, z): the vector at a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    by_cases hA : A = 1
    · rw [if_pos hA]; have := a.isLt; omega
    · rw [if_neg hA]

/-- A scalar broadcast to any shape, at any index: the scalar. -/
theorem bcast_scalar {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun a => a.elim0

/-- Column k of six side by side, at (a, k). -/
theorem cols6_apply {A : ℕ} (x : Fin 6 → (⟨2, ![A, 1]⟩ : Shape).Idx → α)
    (h : Shape.Concatenates [⟨2, ![A, 1]⟩, ⟨2, ![A, 1]⟩, ⟨2, ![A, 1]⟩, ⟨2, ![A, 1]⟩, ⟨2, ![A, 1]⟩, ⟨2, ![A, 1]⟩] ⟨2, ![A, 6]⟩ 1)
    (a : Fin A) (k : Fin 6) :
    concatenate ⟨2, ![A, 6]⟩ 1 [⟨⟨2, ![A, 1]⟩, x 0⟩, ⟨⟨2, ![A, 1]⟩, x 1⟩, ⟨⟨2, ![A, 1]⟩, x 2⟩, ⟨⟨2, ![A, 1]⟩, x 3⟩,
      ⟨⟨2, ![A, 1]⟩, x 4⟩, ⟨⟨2, ![A, 1]⟩, x 5⟩] h (ix2 a k) = x k (ix2 a z1) := by
  have hi : ∀ (k' : Fin 6) (b : Fin 2), b.cast rfl ≠ (1 : Fin 2) → ((ix2 a z1 : (⟨2, ![A, 1]⟩ : Shape).Idx) b).val
      = ((ix2 a k' : (⟨2, ![A, 6]⟩ : Shape).Idx) (b.cast rfl)).val := fun k' b hb => by
    match b with
    | ⟨0, _⟩ => rfl
    | ⟨1, _⟩ => exact absurd rfl hb
  have go : ∀ (n : Nat) (hn : n < 6), concatenate ⟨2, ![A, 6]⟩ 1 [⟨⟨2, ![A, 1]⟩, x 0⟩, ⟨⟨2, ![A, 1]⟩, x 1⟩, ⟨⟨2, ![A, 1]⟩, x 2⟩,
      ⟨⟨2, ![A, 1]⟩, x 3⟩, ⟨⟨2, ![A, 1]⟩, x 4⟩, ⟨⟨2, ![A, 1]⟩, x 5⟩] h (ix2 a ⟨n, hn⟩) = x ⟨n, hn⟩ (ix2 a z1) := fun n hn =>
    concatenate_apply_piece (t := ⟨2, ![A, 6]⟩) 1
      [⟨⟨2, ![A, 1]⟩, x 0⟩, ⟨⟨2, ![A, 1]⟩, x 1⟩, ⟨⟨2, ![A, 1]⟩, x 2⟩, ⟨⟨2, ![A, 1]⟩, x 3⟩, ⟨⟨2, ![A, 1]⟩, x 4⟩, ⟨⟨2, ![A, 1]⟩, x 5⟩]
      h (ix2 a ⟨n, hn⟩) n hn ⟨2, ![A, 1]⟩ (x ⟨n, hn⟩)
      (by
        match n, hn with
        | 0, _ => rfl
        | 1, _ => rfl
        | 2, _ => rfl
        | 3, _ => rfl
        | 4, _ => rfl
        | 5, _ => rfl)
      rfl n
      (by
        match n, hn with
        | 0, _ => rfl
        | 1, _ => rfl
        | 2, _ => rfl
        | 3, _ => rfl
        | 4, _ => rfl
        | 5, _ => rfl)
      (ix2 a z1) (hi ⟨n, hn⟩) (Nat.add_zero n)
  exact go k.val k.isLt

/-- One of six things, by position. -/
def pick6 {β : Type} (y0 y1 y2 y3 y4 y5 : β) : Fin 6 → β
  | ⟨0, _⟩ => y0 | ⟨1, _⟩ => y1 | ⟨2, _⟩ => y2 | ⟨3, _⟩ => y3 | ⟨4, _⟩ => y4 | ⟨5, _⟩ => y5

/-- Six named columns side by side, at (a, k): the k-th of them at (a, 0). -/
theorem cols6_pick {A : ℕ} (x0 x1 x2 x3 x4 x5 : (⟨2, ![A, 1]⟩ : Shape).Idx → α)
    (h : Shape.Concatenates [⟨2, ![A, 1]⟩, ⟨2, ![A, 1]⟩, ⟨2, ![A, 1]⟩, ⟨2, ![A, 1]⟩, ⟨2, ![A, 1]⟩, ⟨2, ![A, 1]⟩] ⟨2, ![A, 6]⟩ 1)
    (a : Fin A) (k : Fin 6) :
    concatenate ⟨2, ![A, 6]⟩ 1 [⟨⟨2, ![A, 1]⟩, x0⟩, ⟨⟨2, ![A, 1]⟩, x1⟩, ⟨⟨2, ![A, 1]⟩, x2⟩, ⟨⟨2, ![A, 1]⟩, x3⟩,
      ⟨⟨2, ![A, 1]⟩, x4⟩, ⟨⟨2, ![A, 1]⟩, x5⟩] h (ix2 a k) = pick6 x0 x1 x2 x3 x4 x5 k (ix2 a z1) :=
  cols6_apply (pick6 x0 x1 x2 x3 x4 x5) h a k

/-- The left of two columns side by side, at (a, 0). -/
theorem cols2_left {A : ℕ} (x₁ x₂ : (⟨2, ![A, 1]⟩ : Shape).Idx → α)
    (h : Shape.Concatenates [⟨2, ![A, 1]⟩, ⟨2, ![A, 1]⟩] ⟨2, ![A, 2]⟩ 1) (a : Fin A) :
    concatenate ⟨2, ![A, 2]⟩ 1 [⟨⟨2, ![A, 1]⟩, x₁⟩, ⟨⟨2, ![A, 1]⟩, x₂⟩] h (ix2 a (0 : Fin 2)) = x₁ (ix2 a z1) :=
  concatenate_pair_apply_left 1 x₁ x₂ h _ rfl (ix2 a z1) fun b => by
    match b with
    | ⟨0, _⟩ => rfl
    | ⟨1, _⟩ => rfl

/-- The right of two columns side by side, at (a, 1). -/
theorem cols2_right {A : ℕ} (x₁ x₂ : (⟨2, ![A, 1]⟩ : Shape).Idx → α)
    (h : Shape.Concatenates [⟨2, ![A, 1]⟩, ⟨2, ![A, 1]⟩] ⟨2, ![A, 2]⟩ 1) (a : Fin A) :
    concatenate ⟨2, ![A, 2]⟩ 1 [⟨⟨2, ![A, 1]⟩, x₁⟩, ⟨⟨2, ![A, 1]⟩, x₂⟩] h (ix2 a (1 : Fin 2)) = x₂ (ix2 a z1) :=
  concatenate_pair_apply_right 1 x₁ x₂ h _ rfl rfl (ix2 a z1)
    (fun b hb => by
      match b with
      | ⟨0, _⟩ => rfl
      | ⟨1, _⟩ => exact absurd rfl hb)
    rfl

/-! ## The point gather -/

/-- The dimension numbers of a point gather: operand [N, C], start indices [R, 2], result [R]. -/
abbrev pointDims (N C R : Nat)
    (wf : GatherDims.WF ⟨2, ![N, C]⟩ ⟨2, ![R, 2]⟩ ⟨1, ![R]⟩ [] [0, 1] [] [0, 1] [] 1 ![1, 1]) :
    GatherDims ⟨2, ![N, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- A start-index component, read signed and clamped into an axis of extent n. -/
def clampTo {w : Nat} (n : Nat) (hn : 0 < n) (v : BitVec w) : Fin n := ⟨min v.toInt.toNat (n - 1), by omega⟩

/-- THE POINT GATHER READ AT e: the operand at the clamped (row, column) start index e holds. -/
theorem gather_points_apply {N C R w : Nat} (hN : 0 < N) (hC : 0 < C)
    (wf : GatherDims.WF ⟨2, ![N, C]⟩ ⟨2, ![R, 2]⟩ ⟨1, ![R]⟩ [] [0, 1] [] [0, 1] [] 1 ![1, 1])
    (x : (⟨2, ![N, C]⟩ : Shape).Idx → α) (idx : IVec ⟨2, ![R, 2]⟩ w) (e : Fin R) :
    Host.gather (pointDims N C R wf) x idx (ix1 e)
      = x (ix2 (clampTo N hN (idx (ix2 e (0 : Fin 2)))) (clampTo C hC (idx (ix2 e (1 : Fin 2))))) := by
  unfold Host.gather
  refine congrArg x ?_
  funext a
  refine Fin.ext ?_
  show (pointDims N C R wf).start (ix1 e) idx a + (pointDims N C R wf).batchCoord (ix1 e) a
      + (pointDims N C R wf).offCoord (ix1 e) a = _
  rw [GatherDims.batchCoord_eq_zero _ _ _ List.not_mem_nil, Nat.add_zero]
  match a with
  | ⟨0, _⟩ =>
    show (pointDims N C R wf).start (ix1 e) idx (0 : Fin 2) + (pointDims N C R wf).offCoord (ix1 e) (0 : Fin 2)
      = (clampTo N hN (idx (ix2 e (0 : Fin 2)))).val
    rw [GatherDims.offCoord_eq_zero _ _ _
      (fun h => ((GatherDims.mem_sKept _ _).mp h).1 (List.mem_cons_self)), Nat.add_zero]
    unfold GatherDims.start
    rw [dif_pos (show (0 : Fin 2) ∈ (pointDims N C R wf).startIndexMap from List.mem_cons_self)]
    have hsi : (pointDims N C R wf).siIdx (ix1 e) ⟨List.idxOf (0 : Fin 2) (pointDims N C R wf).startIndexMap,
        List.idxOf_lt_length_iff.2 List.mem_cons_self⟩ = ix2 e (0 : Fin 2) := by
      funext b; refine Fin.ext ?_
      match b with
      | ⟨0, _⟩ => rfl
      | ⟨1, _⟩ => rfl
    rw [hsi]
    rfl
  | ⟨1, _⟩ =>
    show (pointDims N C R wf).start (ix1 e) idx (1 : Fin 2) + (pointDims N C R wf).offCoord (ix1 e) (1 : Fin 2)
      = (clampTo C hC (idx (ix2 e (1 : Fin 2)))).val
    rw [GatherDims.offCoord_eq_zero _ _ _
      (fun h => ((GatherDims.mem_sKept _ _).mp h).1 (List.mem_cons_of_mem _ List.mem_cons_self)), Nat.add_zero]
    unfold GatherDims.start
    rw [dif_pos (show (1 : Fin 2) ∈ (pointDims N C R wf).startIndexMap from List.mem_cons_of_mem _ List.mem_cons_self)]
    have hsi : (pointDims N C R wf).siIdx (ix1 e) ⟨List.idxOf (1 : Fin 2) (pointDims N C R wf).startIndexMap,
        List.idxOf_lt_length_iff.2 (List.mem_cons_of_mem _ List.mem_cons_self)⟩ = ix2 e (1 : Fin 2) := by
      funext b; refine Fin.ext ?_
      match b with
      | ⟨0, _⟩ => rfl
      | ⟨1, _⟩ => rfl
    rw [hsi]
    rfl

end Cert.LibColumnOps

end
-- ==== Proof.LibRowScale.lean ====
/-
  Scaling the rows of a matrix by a per-row factor, at the extended reals.

  A vector of per-row factors `v : [A]` is stretched along the rows of an `[A, B]` matrix in two host steps, `[A] → [A, 1]`
  (dims 0) and `[A, 1] → [A, B]` (dims 0, 1); read at `(a, b)` the result is `v a`. With the factor `1 / max (c a) 1`,
  multiplying the matrix by the stretched factor is dividing it by the stretched `max (c a) 1`: the divisor is at least one,
  so it is not zero, and a quotient by a non-zero extended real is the product with its inverse — for every extended real
  numerator and every extended real `c a`, infinite ones included. The float word `0x3F800000` denotes the real one.
-/
import Idealize.ShloMosaic.PureOps.Ideal.Laws
import Idealize.ShloMosaic.Lib.ValueIdx
import Idealize.ShloMosaic.Lib.Pipeline.Value

noncomputable section

namespace Cert.LibRowScale

open Idealize.ShloMosaic Idealize.ShloMosaic.ValueIdx

/-- The float word of `1.0` denotes the real one. -/
theorem one_word : Ideal.ofBits .f32 0x3F800000#32 = 1 := by
  simp [Ideal.ofBits, Ideal.ieee, -EReal.coe_mul]; norm_num

/-- `max c 1` is not zero, whatever `c`. -/
theorem max_one_ne_zero (c : EReal) : max c 1 ≠ 0 :=
  ne_of_gt (lt_of_lt_of_le (by exact_mod_cast (zero_lt_one : (0 : ℝ) < 1)) (le_max_right c 1))

/-- `a · (1 / max c 1) = a / max c 1` on the extended reals. -/
theorem mul_recip (a c : EReal) : a * Ideal.div 1 (max c 1) = Ideal.div a (max c 1) := by
  rw [Ideal.div, Ideal.div, if_neg (max_one_ne_zero c), if_neg (max_one_ne_zero c), one_mul]

variable {α : Type}

/-- `[A]` laid into `[A, 1]` (dims 0), at `(a, z)`: the operand at `a`. -/
theorem hb_a_a1 {A : ℕ} (h : (⟨1, ![A]⟩ : Shape).BroadcastsInDim ⟨2, ![A, 1]⟩ ![0])
    (x : (⟨1, ![A]⟩ : Shape).Idx → α) (a : Fin A) (z : Fin 1) :
    broadcastInDim ⟨2, ![A, 1]⟩ ![0] h x (ix2 a z) = x (ix1 a) := by
  refine broadcastInDim_apply _ h x _ _ fun d => ?_
  match d with
  | ⟨0, _⟩ =>
    show a.val = if A = 1 then 0 else a.val
    split_ifs with hA
    · have := a.isLt; omega
    · rfl

/-- `[A, 1]` stretched to `[A, B]` (dims 0, 1), at `(a, b)`: the operand at `(a, 0)`. -/
theorem hb_a1_ab {A B : ℕ} (h : (⟨2, ![A, 1]⟩ : Shape).BroadcastsInDim ⟨2, ![A, B]⟩ ![0, 1])
    (x : (⟨2, ![A, 1]⟩ : Shape).Idx → α) (a : Fin A) (b : Fin B) :
    broadcastInDim ⟨2, ![A, B]⟩ ![0, 1] h x (ix2 a b) = x (ix2 a 0) := by
  refine broadcastInDim_apply _ h x _ _ fun d => ?_
  match d with
  | ⟨0, _⟩ =>
    show a.val = if A = 1 then 0 else a.val
    split_ifs with hA
    · have := a.isLt; omega
    · rfl
  | ⟨1, _⟩ => rfl

/-- A per-row factor stretched along the rows, at `(a, b)`: the factor of row `a`. -/
theorem rowStretch_apply {A B : ℕ} (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) :=
  (hb_a1_ab h2 _ a b).trans (hb_a_a1 h1 v a 0)

/-- A scalar broadcast to any shape, at any index: the scalar. -/
theorem hb_scalar {t : Shape} (h : (⟨0, ![]⟩ : Shape).BroadcastsInDim t ![])
    (x : (⟨0, ![]⟩ : Shape).Idx → α) (j : t.Idx) :
    broadcastInDim t ![] h x j = x ix0 :=
  broadcastInDim_apply _ h x _ _ fun d => d.elim0

/-- The matrix times the stretched `1 / max c 1` is the matrix divided by the stretched `max c 1`, the ones being
    the float word of `1.0` broadcast. -/
theorem mul_stretched_recip {A B : ℕ} (h0 : (⟨0, ![]⟩ : Shape).BroadcastsInDim ⟨1, ![A]⟩ ![])
    (h1 : (⟨1, ![A]⟩ : Shape).BroadcastsInDim ⟨2, ![A, 1]⟩ ![0])
    (h2 : (⟨2, ![A, 1]⟩ : Shape).BroadcastsInDim ⟨2, ![A, B]⟩ ![0, 1])
    (M : FVec Ideal ⟨2, ![A, B]⟩ .f32) (c : FVec Ideal ⟨1, ![A]⟩ .f32) :
    mulf M (broadcastInDim ⟨2, ![A, B]⟩ ![0, 1] h2 (broadcastInDim ⟨2, ![A, 1]⟩ ![0] h1
        (Host.divf (broadcastInDim ⟨1, ![A]⟩ ![] h0 (constant (F := Ideal) ⟨0, ![]⟩ .f32 0x3F800000#32))
          (maximumf c (broadcastInDim ⟨1, ![A]⟩ ![] h0 (constant (F := Ideal) ⟨0, ![]⟩ .f32 0x3F800000#32))))))
      = Host.divf M (broadcastInDim ⟨2, ![A, B]⟩ ![0, 1] h2 (broadcastInDim ⟨2, ![A, 1]⟩ ![0] h1
          (maximumf c (broadcastInDim ⟨1, ![A]⟩ ![] h0 (constant (F := Ideal) ⟨0, ![]⟩ .f32 0x3F800000#32))))) := by
  funext i
  obtain ⟨a, b, rfl⟩ : ∃ (a : Fin A) (b : Fin B), i = ix2 a b := ⟨i 0, i 1, eq_ix2 i⟩
  have e1 : ∀ j : (⟨1, ![A]⟩ : Shape).Idx,
      broadcastInDim ⟨1, ![A]⟩ ![] h0 (constant (F := Ideal) ⟨0, ![]⟩ .f32 0x3F800000#32) j = (1 : EReal) :=
    fun j => (hb_scalar h0 _ j).trans one_word
  show M (ix2 a b) * _ = Ideal.div (M (ix2 a b)) _
  rw [rowStretch_apply h1 h2 _ a b, rowStretch_apply h1 h2 _ a b]
  show M (ix2 a b) * Ideal.div _ (max (c (ix1 a)) _) = Ideal.div (M (ix2 a b)) (max (c (ix1 a)) _)
  rw [e1]
  exact mul_recip _ _

end Cert.LibRowScale

end
-- ==== Proof.LibArrayForms.lean ====
/-
  Whole-array forms of a few host and kernel operations, over the extended reals.

  Four functions of whole arrays: the product of an [A,K] matrix with a [K,B] matrix, entry by entry the sum over the
  contracted coordinate (`matProd`); the rows of an [A,B] matrix each multiplied by one of A factors (`scaleRows`); one
  number added to every entry of a matrix (`addScalar`); the entrywise maximum with zero (`relu`). And the spellings
  they take in a printed program, each proved equal to the function as a whole array, at any extents: the host's product
  with one contracted axis (the record's facts taken as hypotheses; at a literal record they hold by computation); a
  vector of factors stretched in two host steps [A] → [A,1] → [A,B] and multiplied in from the left, and the same
  vector held as an [A,1] column and multiplied in from the right (multiplication commutes on the extended reals, so no
  finiteness is needed); the maximum with a stretched zero word; a one-entry bias stretched [1] → [1,1] → [A,1] and
  added, and the same bias held as a 1 x 1 matrix.
-/
import Idealize.ShloMosaic.PureOps.Ideal.Laws
import Idealize.ShloMosaic.Lib.ValueIdx
import Idealize.ShloMosaic.Lib.Pipeline.Value
import proofs.«141900_j18966575579589_2_alg».proof.Proof.LibColumnBlocks
import proofs.«141900_j18966575579589_2_alg».proof.Proof.LibColumnOps
import proofs.«141900_j18966575579589_2_alg».proof.Proof.LibRowScale

noncomputable section

namespace Cert.Gcn

open Idealize.ShloMosaic Idealize.ShloMosaic.ValueIdx

/-- The product of an [A,K] matrix with a [K,B] matrix, entry by entry: the sum over the contracted coordinate. -/
def matProd {A K B : ℕ} (X : FVec Ideal ⟨2, ![A, K]⟩ .f32) (W : FVec Ideal ⟨2, ![K, B]⟩ .f32) : FVec Ideal ⟨2, ![A, B]⟩ .f32 :=
  fun i => ∑ k : Fin K, X (ix2 (i 0) k) * W (ix2 k (i 1))

/-- Row `e` of an [A,B] matrix multiplied by the `e`-th of A factors. -/
def scaleRows {A B : ℕ} (f : FVec Ideal ⟨1, ![A]⟩ .f32) (G : FVec Ideal ⟨2, ![A, B]⟩ .f32) : FVec Ideal ⟨2, ![A, B]⟩ .f32 :=
  fun i => f (ix1 (i 0)) * G i

/-- One number added to every entry of a matrix. -/
def addScalar {A B : ℕ} (M : FVec Ideal ⟨2, ![A, B]⟩ .f32) (b : FVec Ideal ⟨1, ![1]⟩ .f32) : FVec Ideal ⟨2, ![A, B]⟩ .f32 :=
  fun i => M i + b (ix1 0)

/-- The entrywise maximum with zero. -/
def relu {A B : ℕ} (M : FVec Ideal ⟨2, ![A, B]⟩ .f32) : FVec Ideal ⟨2, ![A, B]⟩ .f32 :=
  fun i => max (M i) 0

/-! ## The printed forms of the four functions -/

/-- A per-row factor stretched along the rows and multiplied in from the left. -/
theorem hostScale {A B : ℕ} (h1 : (⟨1, ![A]⟩ : Shape).BroadcastsInDim ⟨2, ![A, 1]⟩ ![0])
    (h2 : (⟨2, ![A, 1]⟩ : Shape).BroadcastsInDim ⟨2, ![A, B]⟩ ![0, 1])
    (f : FVec Ideal ⟨1, ![A]⟩ .f32) (G : FVec Ideal ⟨2, ![A, B]⟩ .f32) :
    mulf (broadcastInDim ⟨2, ![A, B]⟩ ![0, 1] h2 (broadcastInDim ⟨2, ![A, 1]⟩ ![0] h1 f)) G = scaleRows f G := by
  funext i
  obtain ⟨a, b, rfl⟩ : ∃ (a : Fin A) (b : Fin B), i = ix2 a b := ⟨i 0, i 1, eq_ix2 i⟩
  rw [mulf_apply, Cert.LibRowScale.rowStretch_apply h1 h2 f a b]
  rfl

/-- A per-row factor held as a column and multiplied in from the right. -/
theorem colScale {A B : ℕ} (h : (⟨1, ![A]⟩ : Shape).ShapeCasts ⟨2, ![A, 1]⟩)
    (f : FVec Ideal ⟨1, ![A]⟩ .f32) (G : FVec Ideal ⟨2, ![A, B]⟩ .f32) :
    (fun i => G i * (shapeCast ⟨2, ![A, 1]⟩ f h : FVec Ideal ⟨2, ![A, 1]⟩ .f32) (ix2 (i 0) (0 : Fin 1))) = scaleRows f G := by
  funext i
  show G i * (shapeCast ⟨2, ![A, 1]⟩ f h) (ix2 (i 0) (0 : Fin 1)) = f (ix1 (i 0)) * G i
  rw [Cert.LibColumnOps.col_of_vec f h (i 0) (0 : Fin 1)]
  exact mul_comm _ _

/-- The maximum with a stretched zero. -/
theorem hostRelu {A B : ℕ} (h : (⟨0, ![]⟩ : Shape).BroadcastsInDim ⟨2, ![A, B]⟩ ![])
    (M : FVec Ideal ⟨2, ![A, B]⟩ .f32) :
    maximumf M (broadcastInDim ⟨2, ![A, B]⟩ ![] h (constant (F := Ideal) ⟨0, ![]⟩ .f32 0x00000000#32)) = relu M := by
  funext i
  rw [maximumf_apply, Cert.LibColumnOps.bcast_scalar _ h i, constant_apply, Ideal.ofBits_zero_f32]
  rfl

/-- A one-entry bias stretched over a matrix and added. -/
theorem hostBias {A : ℕ} (h1 : (⟨1, ![1]⟩ : Shape).BroadcastsInDim ⟨2, ![1, 1]⟩ ![1])
    (h2 : (⟨2, ![1, 1]⟩ : Shape).BroadcastsInDim ⟨2, ![A, 1]⟩ ![0, 1])
    (M : FVec Ideal ⟨2, ![A, 1]⟩ .f32) (b : FVec Ideal ⟨1, ![1]⟩ .f32) :
    addf M (broadcastInDim ⟨2, ![A, 1]⟩ ![0, 1] h2 (broadcastInDim ⟨2, ![1, 1]⟩ ![1] h1 b)) = addScalar M b := by
  funext i
  rw [addf_apply]
  refine congrArg (M i + ·) ?_
  refine (broadcastInDim_apply _ h2 _ i (ix2 (0 : Fin 1) (0 : Fin 1)) fun a => ?_).trans ?_
  · match a with
    | ⟨0, _⟩ => rfl
    | ⟨1, _⟩ => rfl
  · refine broadcastInDim_apply _ h1 b _ (ix1 (0 : Fin 1)) fun a => ?_
    match a with
    | ⟨0, _⟩ => rfl

/-- A one-entry bias held as a 1 x 1 matrix and added. -/
theorem cellBias {A : ℕ} (h : (⟨1, ![1]⟩ : Shape).ShapeCasts ⟨2, ![1, 1]⟩)
    (M : FVec Ideal ⟨2, ![A, 1]⟩ .f32) (b : FVec Ideal ⟨1, ![1]⟩ .f32) :
    (fun i => M i + (shapeCast ⟨2, ![1, 1]⟩ b h : FVec Ideal ⟨2, ![1, 1]⟩ .f32) (ix2 (0 : Fin 1) (0 : Fin 1))) = addScalar M b := by
  funext i
  show M i + (shapeCast ⟨2, ![1, 1]⟩ b h) (ix2 (0 : Fin 1) (0 : Fin 1)) = M i + b (ix1 0)
  rw [Cert.LibColumnOps.col_of_vec b h (0 : Fin 1) (0 : Fin 1)]

/-- The host's product with one contracted axis, whole. -/
theorem hostDot {A K B : ℕ} (d : DotDims ⟨2, ![A, K]⟩ ⟨2, ![K, B]⟩ ⟨2, ![A, B]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (X : FVec Ideal ⟨2, ![A, K]⟩ .f32) (W : FVec Ideal ⟨2, ![K, B]⟩ .f32) :
    Host.dotGeneral d none X W = matProd X W := by
  funext i
  obtain ⟨a, b, rfl⟩ : ∃ (a : Fin A) (b : Fin B), i = ix2 a b := ⟨i 0, i 1, eq_ix2 i⟩
  exact Cert.LibColumnBlocks.hostDot_apply d hr hs hlc hrc hl0 hr1 X W a b none

end Cert.Gcn

end
-- ==== Proof.Launch0.lean ====
/-
  The first launch: the node features times the first layer's weights.

  The launch's ten grid points each read a block of 10000 rows of the feature matrix and the whole 16 x 16 weight
  matrix, and write the block's product — the narrowing of both operands to a shorter float format is the identity
  on the extended reals, and the accumulating product into a zero accumulator is the plain sum over the
  contracted coordinate — to the same rows of the result. Block `t` of the result is therefore rows
  `10000 t … 10000 t + 9999` of the whole product, and the ten blocks tile the array.
-/
import proofs.«141900_j18966575579589_2_alg».proof.Proof.Gen.KernelIdeal.Frame
import proofs.«141900_j18966575579589_2_alg».proof.Proof.LibColumnBlocks
import proofs.«141900_j18966575579589_2_alg».proof.Proof.LibArrayForms
import Idealize.ShloMosaic.Lib.Pipeline.Value
import Idealize.ShloMosaic.Lib.ValueIdx
import Idealize.ShloMosaic.Lib.Tactic

set_option maxRecDepth 16384

noncomputable section

namespace Cert.KernelIdeal.Launch0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices at a grid point: the feature block and the result block move with the point along the
    rows, the weight matrix is the one block. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at an entry: the sum over the contracted coordinate. -/
theorem pay (x0 : Vec Ideal S10000x16 .f32) (x1 : Vec Ideal S16x16 .f32) (r : Fin 10000) (j : Fin 16) :
    k0_pay1 x0 x1 (ix2 r j) = ∑ k : Fin 16, x0 (ix2 r k) * x1 (ix2 k j) := by
  unfold k0_pay1
  exact Cert.LibColumnBlocks.matmul_zero_apply dot_S10000x16_S16x16_S10000x16_1_0_0_1_n_n rfl rfl rfl rfl
    (fun _ _ => rfl) (fun _ _ => rfl) (truncf .bf16 x0 bitsLt_bf16_f32) (truncf .bf16 x1 bitsLt_bf16_f32) r j none

/-- The feature window's block at point `t` is rows `10000 t …` of the feature matrix. -/
theorem blk0_apply (c : Dev nD) (t : Fin cfg0.N) (x : S10000x16.Idx) (i : S100000x16.Idx)
    (h0 : (i 0).val = t.val * 10000 + (x 0).val) (h1 : (i 1).val = (x 1).val) :
    (iblk0 V c 0 t : Vec Ideal S10000x16 .f32) x = (V c main_arg0 : S100000x16.Idx → Elt Ideal .f32) i := by
  obtain ⟨e0, e1, -⟩ := idx t
  unfold iblk0
  rw [View.read_apply]
  show V c main_arg0 _ = V c main_arg0 _
  refine congrArg (V c main_arg0) (funext fun a => Fin.ext ?_)
  match a with
  | ⟨0, _⟩ => show win0_0.index t 0 * 10000 + 1 * (x 0).val = (i 0).val; rw [e0, h0]; omega
  | ⟨1, _⟩ => show win0_0.index t 1 * 16 + 1 * (x 1).val = (i 1).val; rw [e1, h1]; omega

/-- The weight window's block is the weight matrix at every point. -/
theorem blk1_apply (c : Dev nD) (t : Fin cfg0.N) (x : S16x16.Idx) :
    (iblk0 V c 1 t : Vec Ideal S16x16 .f32) x = (V c main_arg2 : S16x16.Idx → Elt Ideal .f32) x := by
  obtain ⟨-, -, e2, e3, -⟩ := idx t
  unfold iblk0
  rw [View.read_apply]
  show V c main_arg2 _ = V c main_arg2 _
  refine congrArg (V c main_arg2) (funext fun a => Fin.ext ?_)
  match a with
  | ⟨0, _⟩ => show win0_1.index t 0 * 16 + 1 * (x 0).val = (x 0).val; rw [e2]; omega
  | ⟨1, _⟩ => show win0_1.index t 1 * 16 + 1 * (x 1).val = (x 1).val; rw [e3]; omega

/-- What point `t` computes at a local entry is the whole product at the entry's place in the array. -/
theorem point_eq (c : Dev nD) (t : Fin cfg0.N) (y : S10000x16.Idx) (i : S100000x16.Idx)
    (h0 : (i 0).val = t.val * 10000 + (y 0).val) (h1 : (i 1).val = (y 1).val) :
    k0_pay1 (iblk0 V c 0 t) (iblk0 V c 1 t) y = Cert.Gcn.matProd (V c main_arg0) (V c main_arg2) i := by
  obtain ⟨r, j, rfl⟩ : ∃ (r : Fin 10000) (j : Fin 16), y = ix2 r j := ⟨y 0, y 1, eq_ix2 y⟩
  refine (pay (iblk0 V c 0 t) (iblk0 V c 1 t) r j).trans ?_
  unfold Cert.Gcn.matProd
  refine Finset.sum_congr rfl fun k _ => ?_
  rw [blk0_apply V c t (ix2 r k) (ix2 (i 0) k) h0 rfl, blk1_apply V c t (ix2 k j)]
  have e : (ix2 k j : S16x16.Idx) = ix2 k (i 1) := by
    funext a; apply Fin.ext
    match a with
    | ⟨0, _⟩ => rfl
    | ⟨1, _⟩ => exact h1.symm
  rw [e]
  rfl

/-- What point `t` writes back is block `t` of the whole product. -/
theorem flushed_eq (c : Dev nD) (t : Fin cfg0.N) :
    (dat0 V c).flushed 2 t = ((cfg0.win 2).blk t).view.read (Elt Ideal) (Cert.Gcn.matProd (V c main_arg0) (V c main_arg2)) := by
  show (cfg0.win 2).cut (grid0.coords t) ((dat0 V c).after 2 t) = _
  rw [after0_2]
  unfold out0_2
  rw [View.canon_unit_zero hz]
  simp only [View.ld_unit_zero (S := S10000x16) hz, View.ld_unit_zero (S := S16x16) hz]
  obtain ⟨-, -, -, -, e4, e5⟩ := idx t
  funext y
  show k0_pay1 (iblk0 V c 0 t) (iblk0 V c 1 t) y = Cert.Gcn.matProd (V c main_arg0) (V c main_arg2) (((cfg0.win 2).blk t).view.emb y)
  refine point_eq V c t y _ ?_ ?_
  · show win0_2.index t 0 * 10000 + 1 * (y 0).val = t.val * 10000 + (y 0).val; rw [e4]; omega
  · show win0_2.index t 1 * 16 + 1 * (y 1).val = (y 1).val; rw [e5]; omega

/-- An index of the result is in point `t`'s block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v31).slice (win0_2.rect t)).set ↔ _
  rw [View.set_slice_whole, Rect.mem_set_unit]
  exact Iff.rfl

/-- THE RESULT of the launch: the whole product of the two arrays as the launch finds them. -/
theorem final (c : Dev nD) : (dat0 V c).arrAt 2 cfg0.N = Cert.Gcn.matProd (V c main_arg0) (V c main_arg2) :=
  (dat0 V c).arrAt_eq_of_cover 2 _ (fun t _ => flushed_eq V c t) fun i => by
    have hi0 : (i 0).val < 100000 := (i 0).isLt
    have hi1 : (i 1).val < 16 := (i 1).isLt
    let t : Fin cfg0.N := ⟨(i 0).val / 10000, by show _ < grid0.N; rw [N_0]; omega⟩
    obtain ⟨-, -, -, -, e4, e5⟩ := idx t
    refine ⟨t, flush0_2 t, ?_⟩
    rw [mem_blk]
    intro a
    match a with
    | ⟨0, _⟩ => show win0_2.index t 0 * 10000 ≤ (i 0).val ∧ (i 0).val < win0_2.index t 0 * 10000 + 10000
                rw [e4]; show (i 0).val / 10000 * 10000 ≤ (i 0).val ∧ (i 0).val < (i 0).val / 10000 * 10000 + 10000; omega
    | ⟨1, _⟩ => show win0_2.index t 1 * 16 ≤ (i 1).val ∧ (i 1).val < win0_2.index t 1 * 16 + 16
                rw [e5]; omega

end Cert.KernelIdeal.Launch0

end
-- ==== Proof.Launch1.lean ====
/-
  The second launch: every gathered feature row multiplied by its edge's normalisation factor.

  Each of the 1300 grid points reads a block of 5000 gathered rows and the matching 5000 x 1 block of the column of
  factors, stretches the factor of a row along the row's 16 entries and multiplies entry by entry, and writes the
  block back to the same rows of the result. Block `t` of the result is therefore rows `5000 t … 5000 t + 4999` of the
  matrix whose entry `(e, j)` is the gathered entry `(e, j)` times the factor of row `e`; the blocks tile the array.
-/
import proofs.«141900_j18966575579589_2_alg».proof.Proof.Gen.KernelIdeal.Frame
import proofs.«141900_j18966575579589_2_alg».proof.Proof.LibArrayForms
import Idealize.ShloMosaic.Lib.Pipeline.Value
import Idealize.ShloMosaic.Lib.ValueIdx
import Idealize.ShloMosaic.Lib.Tactic

set_option maxRecDepth 16384

noncomputable section

namespace Cert.KernelIdeal.Launch1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The matrix the launch computes: every entry of the gathered rows times its row's factor, the factors a column. -/
def scaled (G : FVec Ideal S6500000x16 .f32) (col : FVec Ideal S6500000x1 .f32) : FVec Ideal S6500000x16 .f32 :=
  fun i => G i * col (ix2 (i 0) (0 : Fin 1))

/-- The windows' block indices at a grid point: all three move with the point along the rows. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's value at an entry: the gathered entry times the factor of its row. -/
theorem pay (x0 : Vec Ideal S5000x16 .f32) (x1 : Vec Ideal S5000x1 .f32) (r : Fin 5000) (j : Fin 16) :
    k1_pay1 x0 x1 (ix2 r j) = x0 (ix2 r j) * x1 (ix2 r (0 : Fin 1)) := by
  unfold k1_pay1
  simp only [shapeCast_self]
  rw [mulf_apply]
  refine congrArg (x0 (ix2 r j) * ·) ?_
  refine broadcastTo_apply x1 broadcasts_S5000x1_S5000x16 (ix2 r j) (ix2 r (0 : Fin 1)) fun a => ?_
  match a with
  | ⟨0, _⟩ => rfl
  | ⟨1, _⟩ => rfl

/-- The gathered rows' block at point `t` is rows `5000 t …` of the gathered matrix. -/
theorem blk0_apply (c : Dev nD) (t : Fin cfg1.N) (x : S5000x16.Idx) (i : S6500000x16.Idx)
    (h0 : (i 0).val = t.val * 5000 + (x 0).val) (h1 : (i 1).val = (x 1).val) :
    (iblk1 V c 0 t : Vec Ideal S5000x16 .f32) x = (V c main_v38 : S6500000x16.Idx → Elt Ideal .f32) i := by
  obtain ⟨e0, e1, -⟩ := idx t
  unfold iblk1
  rw [View.read_apply]
  show V c main_v38 _ = V c main_v38 _
  refine congrArg (V c main_v38) (funext fun a => Fin.ext ?_)
  match a with
  | ⟨0, _⟩ => show win1_0.index t 0 * 5000 + 1 * (x 0).val = (i 0).val; rw [e0, h0]; omega
  | ⟨1, _⟩ => show win1_0.index t 1 * 16 + 1 * (x 1).val = (i 1).val; rw [e1, h1]; omega

/-- The factors' block at point `t` is rows `5000 t …` of the column of factors. -/
theorem blk1_apply (c : Dev nD) (t : Fin cfg1.N) (x : S5000x1.Idx) (i : S6500000x1.Idx)
    (h0 : (i 0).val = t.val * 5000 + (x 0).val) (h1 : (i 1).val = (x 1).val) :
    (iblk1 V c 1 t : Vec Ideal S5000x1 .f32) x = (V c main_v30 : S6500000x1.Idx → Elt Ideal .f32) i := by
  obtain ⟨-, -, e2, e3, -⟩ := idx t
  unfold iblk1
  rw [View.read_apply]
  show V c main_v30 _ = V c main_v30 _
  refine congrArg (V c main_v30) (funext fun a => Fin.ext ?_)
  match a with
  | ⟨0, _⟩ => show win1_1.index t 0 * 5000 + 1 * (x 0).val = (i 0).val; rw [e2, h0]; omega
  | ⟨1, _⟩ => show win1_1.index t 1 * 1 + 1 * (x 1).val = (i 1).val; rw [e3, h1]; omega

/-- What point `t` computes at a local entry is the scaled matrix at the entry's place in the array. -/
theorem point_eq (c : Dev nD) (t : Fin cfg1.N) (y : S5000x16.Idx) (i : S6500000x16.Idx)
    (h0 : (i 0).val = t.val * 5000 + (y 0).val) (h1 : (i 1).val = (y 1).val) :
    k1_pay1 (iblk1 V c 0 t) (iblk1 V c 1 t) y = scaled (V c main_v38) (V c main_v30) i := by
  obtain ⟨r, j, rfl⟩ : ∃ (r : Fin 5000) (j : Fin 16), y = ix2 r j := ⟨y 0, y 1, eq_ix2 y⟩
  refine (pay (iblk1 V c 0 t) (iblk1 V c 1 t) r j).trans ?_
  unfold scaled
  rw [blk0_apply V c t (ix2 r j) i h0 h1, blk1_apply V c t (ix2 r (0 : Fin 1)) (ix2 (i 0) (0 : Fin 1)) h0 rfl]

/-- What point `t` writes back is block `t` of the scaled matrix. -/
theorem flushed_eq (c : Dev nD) (t : Fin cfg1.N) :
    (dat1 V c).flushed 2 t = ((cfg1.win 2).blk t).view.read (Elt Ideal) (scaled (V c main_v38) (V c main_v30)) := by
  show (cfg1.win 2).cut (grid1.coords t) ((dat1 V c).after 2 t) = _
  rw [after1_2]
  unfold out1_2
  rw [View.canon_unit_zero hz]
  simp only [View.ld_unit_zero (S := S5000x16) hz, View.ld_unit_zero (S := S5000x1) hz]
  obtain ⟨-, -, -, -, e4, e5⟩ := idx t
  funext y
  show k1_pay1 (iblk1 V c 0 t) (iblk1 V c 1 t) y = scaled (V c main_v38) (V c main_v30) (((cfg1.win 2).blk t).view.emb y)
  refine point_eq V c t y _ ?_ ?_
  · show win1_2.index t 0 * 5000 + 1 * (y 0).val = t.val * 5000 + (y 0).val; rw [e4]; omega
  · show win1_2.index t 1 * 16 + 1 * (y 1).val = (y 1).val; rw [e5]; omega

/-- An index of the result is in point `t`'s block iff each coordinate is in the block's range on its axis. -/
theorem mem_blk (t : Fin cfg1.N) (i : S6500000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v39).slice (win1_2.rect t)).set ↔ _
  rw [View.set_slice_whole, Rect.mem_set_unit]
  exact Iff.rfl

/-- THE RESULT of the launch: the scaled matrix of the two arrays as the launch finds them. -/
theorem final (c : Dev nD) : (dat1 V c).arrAt 2 cfg1.N = scaled (V c main_v38) (V c main_v30) :=
  (dat1 V c).arrAt_eq_of_cover 2 _ (fun t _ => flushed_eq V c t) fun i => by
    have hi0 : (i 0).val < 6500000 := (i 0).isLt
    have hi1 : (i 1).val < 16 := (i 1).isLt
    let t : Fin cfg1.N := ⟨(i 0).val / 5000, by show _ < grid1.N; rw [N_1]; omega⟩
    obtain ⟨-, -, -, -, e4, e5⟩ := idx t
    refine ⟨t, flush1_2 t, ?_⟩
    rw [mem_blk]
    intro a
    match a with
    | ⟨0, _⟩ => show win1_2.index t 0 * 5000 ≤ (i 0).val ∧ (i 0).val < win1_2.index t 0 * 5000 + 5000
                rw [e4]; show (i 0).val / 5000 * 5000 ≤ (i 0).val ∧ (i 0).val < (i 0).val / 5000 * 5000 + 5000; omega
    | ⟨1, _⟩ => show win1_2.index t 1 * 16 ≤ (i 1).val ∧ (i 1).val < win1_2.index t 1 * 16 + 16
                rw [e5]; omega

end Cert.KernelIdeal.Launch1

end
-- ==== Proof.Launch2.lean ====
/-
  The third launch: the first layer's output, floored at zero, times the second layer's weights.

  The launch's ten grid points each read a block of 10000 rows of the layer's output and the whole 16 x 16 weight
  matrix, take the maximum of every entry with zero, and write the block's product with the weights — the narrowing
  of both operands to a shorter float format is the identity on the extended reals, and the accumulating product
  into a zero accumulator is the plain sum over the contracted coordinate — to the same rows of the result. Block `t`
  of the result is rows `10000 t … 10000 t + 9999` of the whole product, and the ten blocks tile the array.
-/
import proofs.«141900_j18966575579589_2_alg».proof.Proof.Gen.KernelIdeal.Frame
import proofs.«141900_j18966575579589_2_alg».proof.Proof.LibColumnBlocks
import proofs.«141900_j18966575579589_2_alg».proof.Proof.LibArrayForms
import Idealize.ShloMosaic.Lib.Pipeline.Value
import Idealize.ShloMosaic.Lib.ValueIdx
import Idealize.ShloMosaic.Lib.Tactic

set_option maxRecDepth 16384

noncomputable section

namespace Cert.KernelIdeal.Launch2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices at a grid point: the feature block and the result block move with the point along the
    rows, the weight matrix is the one block. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The float word of zero denotes the real zero. -/
theorem zero_word : (Scalar.ofBits (F := Ideal) .f32 0x00000000#32 : EReal) = 0 := Ideal.ofBits_zero_f32

/-- The body's value at an entry: the sum over the contracted coordinate, the left factor floored at zero. -/
theorem pay (x0 : Vec Ideal S10000x16 .f32) (x1 : Vec Ideal S16x16 .f32) (r : Fin 10000) (j : Fin 16) :
    k2_pay1 x0 x1 (ix2 r j) = ∑ k : Fin 16, max (x0 (ix2 r k)) 0 * x1 (ix2 k j) := by
  unfold k2_pay1
  simp only [shapeCast_self]
  refine (Cert.LibColumnBlocks.matmul_zero_apply dot_S10000x16_S16x16_S10000x16_1_0_0_1_n_n rfl rfl rfl rfl
    (fun _ _ => rfl) (fun _ _ => rfl) (truncf .bf16 (maximumf x0 (broadcast S10000x16 (Scalar.ofBits .f32 0x00000000#32))) bitsLt_bf16_f32)
    (truncf .bf16 x1 bitsLt_bf16_f32) r j none).trans ?_
  refine Finset.sum_congr rfl fun k _ => ?_
  show max (x0 (ix2 r k)) (Scalar.ofBits (F := Ideal) .f32 0x00000000#32) * x1 (ix2 k j) = _
  rw [zero_word]

/-- The feature window's block at point `t` is rows `10000 t …` of the feature matrix. -/
theorem blk0_apply (c : Dev nD) (t : Fin cfg2.N) (x : S10000x16.Idx) (i : S100000x16.Idx)
    (h0 : (i 0).val = t.val * 10000 + (x 0).val) (h1 : (i 1).val = (x 1).val) :
    (iblk2 V c 0 t : Vec Ideal S10000x16 .f32) x = (V c main_v45 : S100000x16.Idx → Elt Ideal .f32) i := by
  obtain ⟨e0, e1, -⟩ := idx t
  unfold iblk2
  rw [View.read_apply]
  show V c main_v45 _ = V c main_v45 _
  refine congrArg (V c main_v45) (funext fun a => Fin.ext ?_)
  match a with
  | ⟨0, _⟩ => show win2_0.index t 0 * 10000 + 1 * (x 0).val = (i 0).val; rw [e0, h0]; omega
  | ⟨1, _⟩ => show win2_0.index t 1 * 16 + 1 * (x 1).val = (i 1).val; rw [e1, h1]; omega

/-- The weight window's block is the weight matrix at every point. -/
theorem blk1_apply (c : Dev nD) (t : Fin cfg2.N) (x : S16x16.Idx) :
    (iblk2 V c 1 t : Vec Ideal S16x16 .f32) x = (V c main_arg4 : S16x16.Idx → Elt Ideal .f32) x := by
  obtain ⟨-, -, e2, e3, -⟩ := idx t
  unfold iblk2
  rw [View.read_apply]
  show V c main_arg4 _ = V c main_arg4 _
  refine congrArg (V c main_arg4) (funext fun a => Fin.ext ?_)
  match a with
  | ⟨0, _⟩ => show win2_1.index t 0 * 16 + 1 * (x 0).val = (x 0).val; rw [e2]; omega
  | ⟨1, _⟩ => show win2_1.index t 1 * 16 + 1 * (x 1).val = (x 1).val; rw [e3]; omega

/-- What point `t` computes at a local entry is the whole product at the entry's place in the array. -/
theorem point_eq (c : Dev nD) (t : Fin cfg2.N) (y : S10000x16.Idx) (i : S100000x16.Idx)
    (h0 : (i 0).val = t.val * 10000 + (y 0).val) (h1 : (i 1).val = (y 1).val) :
    k2_pay1 (iblk2 V c 0 t) (iblk2 V c 1 t) y = Cert.Gcn.matProd (Cert.Gcn.relu (V c main_v45)) (V c main_arg4) i := by
  obtain ⟨r, j, rfl⟩ : ∃ (r : Fin 10000) (j : Fin 16), y = ix2 r j := ⟨y 0, y 1, eq_ix2 y⟩
  refine (pay (iblk2 V c 0 t) (iblk2 V c 1 t) r j).trans ?_
  unfold Cert.Gcn.matProd Cert.Gcn.relu
  refine Finset.sum_congr rfl fun k _ => ?_
  rw [blk0_apply V c t (ix2 r k) (ix2 (i 0) k) h0 rfl, blk1_apply V c t (ix2 k j)]
  have e : (ix2 k j : S16x16.Idx) = ix2 k (i 1) := by
    funext a; apply Fin.ext
    match a with
    | ⟨0, _⟩ => rfl
    | ⟨1, _⟩ => exact h1.symm
  rw [e]
  rfl

/-- What point `t` writes back is block `t` of the whole product. -/
theorem flushed_eq (c : Dev nD) (t : Fin cfg2.N) :
    (dat2 V c).flushed 2 t = ((cfg2.win 2).blk t).view.read (Elt Ideal) (Cert.Gcn.matProd (Cert.Gcn.relu (V c main_v45)) (V c main_arg4)) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x16) hz]
  obtain ⟨-, -, -, -, e4, e5⟩ := idx t
  funext y
  show k2_pay1 (iblk2 V c 0 t) (iblk2 V c 1 t) y = Cert.Gcn.matProd (Cert.Gcn.relu (V c main_v45)) (V c main_arg4) (((cfg2.win 2).blk t).view.emb y)
  refine point_eq V c t y _ ?_ ?_
  · show win2_2.index t 0 * 10000 + 1 * (y 0).val = t.val * 10000 + (y 0).val; rw [e4]; omega
  · show win2_2.index t 1 * 16 + 1 * (y 1).val = (y 1).val; rw [e5]; omega

/-- An index of the result is in point `t`'s block iff each coordinate is in the block's range on its axis. -/
theorem mem_blk (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v46).slice (win2_2.rect t)).set ↔ _
  rw [View.set_slice_whole, Rect.mem_set_unit]
  exact Iff.rfl

/-- THE RESULT of the launch: the whole product of the two arrays as the launch finds them. -/
theorem final (c : Dev nD) : (dat2 V c).arrAt 2 cfg2.N = Cert.Gcn.matProd (Cert.Gcn.relu (V c main_v45)) (V c main_arg4) :=
  (dat2 V c).arrAt_eq_of_cover 2 _ (fun t _ => flushed_eq V c t) fun i => by
    have hi0 : (i 0).val < 100000 := (i 0).isLt
    have hi1 : (i 1).val < 16 := (i 1).isLt
    let t : Fin cfg2.N := ⟨(i 0).val / 10000, by show _ < grid2.N; rw [N_2]; omega⟩
    obtain ⟨-, -, -, -, e4, e5⟩ := idx t
    refine ⟨t, flush2_2 t, ?_⟩
    rw [mem_blk]
    intro a
    match a with
    | ⟨0, _⟩ => show win2_2.index t 0 * 10000 ≤ (i 0).val ∧ (i 0).val < win2_2.index t 0 * 10000 + 10000
                rw [e4]; show (i 0).val / 10000 * 10000 ≤ (i 0).val ∧ (i 0).val < (i 0).val / 10000 * 10000 + 10000; omega
    | ⟨1, _⟩ => show win2_2.index t 1 * 16 ≤ (i 1).val ∧ (i 1).val < win2_2.index t 1 * 16 + 16
                rw [e5]; omega

end Cert.KernelIdeal.Launch2

end
-- ==== Proof.Launch3.lean ====
/-
  The fourth launch: every gathered feature row multiplied by its edge's normalisation factor.

  Each of the 1300 grid points reads a block of 5000 gathered rows and the matching 5000 x 1 block of the column of
  factors, stretches the factor of a row along the row's 16 entries and multiplies entry by entry, and writes the
  block back to the same rows of the result. Block `t` of the result is therefore rows `5000 t … 5000 t + 4999` of the
  matrix whose entry `(e, j)` is the gathered entry `(e, j)` times the factor of row `e`; the blocks tile the array.
-/
import proofs.«141900_j18966575579589_2_alg».proof.Proof.Gen.KernelIdeal.Frame
import proofs.«141900_j18966575579589_2_alg».proof.Proof.LibArrayForms
import Idealize.ShloMosaic.Lib.Pipeline.Value
import Idealize.ShloMosaic.Lib.ValueIdx
import Idealize.ShloMosaic.Lib.Tactic

set_option maxRecDepth 16384

noncomputable section

namespace Cert.KernelIdeal.Launch3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The matrix the launch computes: every entry of the gathered rows times its row's factor, the factors a column. -/
def scaled (G : FVec Ideal S6500000x16 .f32) (col : FVec Ideal S6500000x1 .f32) : FVec Ideal S6500000x16 .f32 :=
  fun i => G i * col (ix2 (i 0) (0 : Fin 1))

/-- The windows' block indices at a grid point: all three move with the point along the rows. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The body's value at an entry: the gathered entry times the factor of its row. -/
theorem pay (x0 : Vec Ideal S5000x16 .f32) (x1 : Vec Ideal S5000x1 .f32) (r : Fin 5000) (j : Fin 16) :
    k3_pay1 x0 x1 (ix2 r j) = x0 (ix2 r j) * x1 (ix2 r (0 : Fin 1)) := by
  unfold k3_pay1
  simp only [shapeCast_self]
  rw [mulf_apply]
  refine congrArg (x0 (ix2 r j) * ·) ?_
  refine broadcastTo_apply x1 broadcasts_S5000x1_S5000x16 (ix2 r j) (ix2 r (0 : Fin 1)) fun a => ?_
  match a with
  | ⟨0, _⟩ => rfl
  | ⟨1, _⟩ => rfl

/-- The gathered rows' block at point `t` is rows `5000 t …` of the gathered matrix. -/
theorem blk0_apply (c : Dev nD) (t : Fin cfg3.N) (x : S5000x16.Idx) (i : S6500000x16.Idx)
    (h0 : (i 0).val = t.val * 5000 + (x 0).val) (h1 : (i 1).val = (x 1).val) :
    (iblk3 V c 0 t : Vec Ideal S5000x16 .f32) x = (V c main_v53 : S6500000x16.Idx → Elt Ideal .f32) i := by
  obtain ⟨e0, e1, -⟩ := idx t
  unfold iblk3
  rw [View.read_apply]
  show V c main_v53 _ = V c main_v53 _
  refine congrArg (V c main_v53) (funext fun a => Fin.ext ?_)
  match a with
  | ⟨0, _⟩ => show win3_0.index t 0 * 5000 + 1 * (x 0).val = (i 0).val; rw [e0, h0]; omega
  | ⟨1, _⟩ => show win3_0.index t 1 * 16 + 1 * (x 1).val = (i 1).val; rw [e1, h1]; omega

/-- The factors' block at point `t` is rows `5000 t …` of the column of factors. -/
theorem blk1_apply (c : Dev nD) (t : Fin cfg3.N) (x : S5000x1.Idx) (i : S6500000x1.Idx)
    (h0 : (i 0).val = t.val * 5000 + (x 0).val) (h1 : (i 1).val = (x 1).val) :
    (iblk3 V c 1 t : Vec Ideal S5000x1 .f32) x = (V c main_v30 : S6500000x1.Idx → Elt Ideal .f32) i := by
  obtain ⟨-, -, e2, e3, -⟩ := idx t
  unfold iblk3
  rw [View.read_apply]
  show V c main_v30 _ = V c main_v30 _
  refine congrArg (V c main_v30) (funext fun a => Fin.ext ?_)
  match a with
  | ⟨0, _⟩ => show win3_1.index t 0 * 5000 + 1 * (x 0).val = (i 0).val; rw [e2, h0]; omega
  | ⟨1, _⟩ => show win3_1.index t 1 * 1 + 1 * (x 1).val = (i 1).val; rw [e3, h1]; omega

/-- What point `t` computes at a local entry is the scaled matrix at the entry's place in the array. -/
theorem point_eq (c : Dev nD) (t : Fin cfg3.N) (y : S5000x16.Idx) (i : S6500000x16.Idx)
    (h0 : (i 0).val = t.val * 5000 + (y 0).val) (h1 : (i 1).val = (y 1).val) :
    k3_pay1 (iblk3 V c 0 t) (iblk3 V c 1 t) y = scaled (V c main_v53) (V c main_v30) i := by
  obtain ⟨r, j, rfl⟩ : ∃ (r : Fin 5000) (j : Fin 16), y = ix2 r j := ⟨y 0, y 1, eq_ix2 y⟩
  refine (pay (iblk3 V c 0 t) (iblk3 V c 1 t) r j).trans ?_
  unfold scaled
  rw [blk0_apply V c t (ix2 r j) i h0 h1, blk1_apply V c t (ix2 r (0 : Fin 1)) (ix2 (i 0) (0 : Fin 1)) h0 rfl]

/-- What point `t` writes back is block `t` of the scaled matrix. -/
theorem flushed_eq (c : Dev nD) (t : Fin cfg3.N) :
    (dat3 V c).flushed 2 t = ((cfg3.win 2).blk t).view.read (Elt Ideal) (scaled (V c main_v53) (V c main_v30)) := by
  show (cfg3.win 2).cut (grid3.coords t) ((dat3 V c).after 2 t) = _
  rw [after3_2]
  unfold out3_2
  rw [View.canon_unit_zero hz]
  simp only [View.ld_unit_zero (S := S5000x16) hz, View.ld_unit_zero (S := S5000x1) hz]
  obtain ⟨-, -, -, -, e4, e5⟩ := idx t
  funext y
  show k3_pay1 (iblk3 V c 0 t) (iblk3 V c 1 t) y = scaled (V c main_v53) (V c main_v30) (((cfg3.win 2).blk t).view.emb y)
  refine point_eq V c t y _ ?_ ?_
  · show win3_2.index t 0 * 5000 + 1 * (y 0).val = t.val * 5000 + (y 0).val; rw [e4]; omega
  · show win3_2.index t 1 * 16 + 1 * (y 1).val = (y 1).val; rw [e5]; omega

/-- An index of the result is in point `t`'s block iff each coordinate is in the block's range on its axis. -/
theorem mem_blk (t : Fin cfg3.N) (i : S6500000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v54).slice (win3_2.rect t)).set ↔ _
  rw [View.set_slice_whole, Rect.mem_set_unit]
  exact Iff.rfl

/-- THE RESULT of the launch: the scaled matrix of the two arrays as the launch finds them. -/
theorem final (c : Dev nD) : (dat3 V c).arrAt 2 cfg3.N = scaled (V c main_v53) (V c main_v30) :=
  (dat3 V c).arrAt_eq_of_cover 2 _ (fun t _ => flushed_eq V c t) fun i => by
    have hi0 : (i 0).val < 6500000 := (i 0).isLt
    have hi1 : (i 1).val < 16 := (i 1).isLt
    let t : Fin cfg3.N := ⟨(i 0).val / 5000, by show _ < grid3.N; rw [N_3]; omega⟩
    obtain ⟨-, -, -, -, e4, e5⟩ := idx t
    refine ⟨t, flush3_2 t, ?_⟩
    rw [mem_blk]
    intro a
    match a with
    | ⟨0, _⟩ => show win3_2.index t 0 * 5000 ≤ (i 0).val ∧ (i 0).val < win3_2.index t 0 * 5000 + 5000
                rw [e4]; show (i 0).val / 5000 * 5000 ≤ (i 0).val ∧ (i 0).val < (i 0).val / 5000 * 5000 + 5000; omega
    | ⟨1, _⟩ => show win3_2.index t 1 * 16 ≤ (i 1).val ∧ (i 1).val < win3_2.index t 1 * 16 + 16
                rw [e5]; omega

end Cert.KernelIdeal.Launch3

end
-- ==== Proof.Launch4.lean ====
/-
  The fifth launch: the linear head.

  The launch's ten grid points each read a block of 10000 rows of the second layer's output, the whole 16 x 1 weight
  column and the 1 x 1 bias, and write the block's product with the weights plus the bias — the narrowing of both
  operands to a shorter float format is the identity on the extended reals, the accumulating product into a zero
  accumulator is the plain sum over the contracted coordinate, and the 1 x 1 bias stretched over the block is the one
  number everywhere — to the same rows of the result. Block `t` of the result is rows `10000 t … 10000 t + 9999` of
  the whole product plus the bias, and the ten blocks tile the array.
-/
import proofs.«141900_j18966575579589_2_alg».proof.Proof.Gen.KernelIdeal.Frame
import proofs.«141900_j18966575579589_2_alg».proof.Proof.LibColumnBlocks
import proofs.«141900_j18966575579589_2_alg».proof.Proof.LibArrayForms
import Idealize.ShloMosaic.Lib.Pipeline.Value
import Idealize.ShloMosaic.Lib.ValueIdx
import Idealize.ShloMosaic.Lib.Tactic

set_option maxRecDepth 16384

noncomputable section

namespace Cert.KernelIdeal.Launch4

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The column the launch computes: the product with the weight column, plus the one number of the 1 x 1 bias. -/
def biased (X : FVec Ideal S100000x16 .f32) (W : FVec Ideal S16x1 .f32) (b : FVec Ideal S1x1 .f32) : FVec Ideal S100000x1 .f32 :=
  fun i => Cert.Gcn.matProd X W i + b (ix2 (0 : Fin 1) (0 : Fin 1))

/-- The windows' block indices at a grid point: the input block and the result block move with the point along the
    rows, the weight column and the bias are one block each. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The body's value at an entry: the sum over the contracted coordinate, plus the bias. -/
theorem pay (x0 : Vec Ideal S10000x16 .f32) (x1 : Vec Ideal S16x1 .f32) (x2 : Vec Ideal S1x1 .f32) (r : Fin 10000) (j : Fin 1) :
    k4_pay1 x0 x1 x2 (ix2 r j) = (∑ k : Fin 16, x0 (ix2 r k) * x1 (ix2 k j)) + x2 (ix2 (0 : Fin 1) (0 : Fin 1)) := by
  unfold k4_pay1
  simp only [shapeCast_self]
  rw [addf_apply]
  refine congrArg₂ (· + ·) ?_ ?_
  · exact Cert.LibColumnBlocks.matmul_zero_apply dot_S10000x16_S16x1_S10000x1_1_0_0_1_n_n rfl rfl rfl rfl
      (fun _ _ => rfl) (fun _ _ => rfl) (truncf .bf16 x0 bitsLt_bf16_f32) (truncf .bf16 x1 bitsLt_bf16_f32) r j none
  · refine broadcastTo_apply x2 broadcasts_S1x1_S10000x1 (ix2 r j) (ix2 (0 : Fin 1) (0 : Fin 1)) fun a => ?_
    match a with
    | ⟨0, _⟩ => rfl
    | ⟨1, _⟩ => rfl

/-- The input window's block at point `t` is rows `10000 t …` of the layer's output. -/
theorem blk0_apply (c : Dev nD) (t : Fin cfg4.N) (x : S10000x16.Idx) (i : S100000x16.Idx)
    (h0 : (i 0).val = t.val * 10000 + (x 0).val) (h1 : (i 1).val = (x 1).val) :
    (iblk4 V c 0 t : Vec Ideal S10000x16 .f32) x = (V c main_v60 : S100000x16.Idx → Elt Ideal .f32) i := by
  obtain ⟨e0, e1, -⟩ := idx t
  unfold iblk4
  rw [View.read_apply]
  show V c main_v60 _ = V c main_v60 _
  refine congrArg (V c main_v60) (funext fun a => Fin.ext ?_)
  match a with
  | ⟨0, _⟩ => show win4_0.index t 0 * 10000 + 1 * (x 0).val = (i 0).val; rw [e0, h0]; omega
  | ⟨1, _⟩ => show win4_0.index t 1 * 16 + 1 * (x 1).val = (i 1).val; rw [e1, h1]; omega

/-- The weight window's block is the weight column at every point. -/
theorem blk1_apply (c : Dev nD) (t : Fin cfg4.N) (x : S16x1.Idx) :
    (iblk4 V c 1 t : Vec Ideal S16x1 .f32) x = (V c main_arg6 : S16x1.Idx → Elt Ideal .f32) x := by
  obtain ⟨-, -, e2, e3, -⟩ := idx t
  unfold iblk4
  rw [View.read_apply]
  show V c main_arg6 _ = V c main_arg6 _
  refine congrArg (V c main_arg6) (funext fun a => Fin.ext ?_)
  match a with
  | ⟨0, _⟩ => show win4_1.index t 0 * 16 + 1 * (x 0).val = (x 0).val; rw [e2]; omega
  | ⟨1, _⟩ => show win4_1.index t 1 * 1 + 1 * (x 1).val = (x 1).val; rw [e3]; omega

/-- The bias window's block is the 1 x 1 bias at every point. -/
theorem blk2_apply (c : Dev nD) (t : Fin cfg4.N) (x : S1x1.Idx) :
    (iblk4 V c 2 t : Vec Ideal S1x1 .f32) x = (V c main_v61 : S1x1.Idx → Elt Ideal .f32) x := by
  obtain ⟨-, -, -, -, e4, e5, -⟩ := idx t
  unfold iblk4
  rw [View.read_apply]
  show V c main_v61 _ = V c main_v61 _
  refine congrArg (V c main_v61) (funext fun a => Fin.ext ?_)
  match a with
  | ⟨0, _⟩ => show win4_2.index t 0 * 1 + 1 * (x 0).val = (x 0).val; rw [e4]; omega
  | ⟨1, _⟩ => show win4_2.index t 1 * 1 + 1 * (x 1).val = (x 1).val; rw [e5]; omega

/-- What point `t` computes at a local entry is the biased product at the entry's place in the array. -/
theorem point_eq (c : Dev nD) (t : Fin cfg4.N) (y : S10000x1.Idx) (i : S100000x1.Idx)
    (h0 : (i 0).val = t.val * 10000 + (y 0).val) (h1 : (i 1).val = (y 1).val) :
    k4_pay1 (iblk4 V c 0 t) (iblk4 V c 1 t) (iblk4 V c 2 t) y = biased (V c main_v60) (V c main_arg6) (V c main_v61) i := by
  obtain ⟨r, j, rfl⟩ : ∃ (r : Fin 10000) (j : Fin 1), y = ix2 r j := ⟨y 0, y 1, eq_ix2 y⟩
  refine (pay (iblk4 V c 0 t) (iblk4 V c 1 t) (iblk4 V c 2 t) r j).trans ?_
  unfold biased Cert.Gcn.matProd
  rw [blk2_apply V c t (ix2 (0 : Fin 1) (0 : Fin 1))]
  refine congrArg (· + (V c main_v61 : S1x1.Idx → Elt Ideal .f32) (ix2 (0 : Fin 1) (0 : Fin 1))) ?_
  refine Finset.sum_congr rfl fun k _ => ?_
  rw [blk0_apply V c t (ix2 r k) (ix2 (i 0) k) h0 rfl, blk1_apply V c t (ix2 k j)]
  have e : (ix2 k j : S16x1.Idx) = ix2 k (i 1) := by
    funext a; apply Fin.ext
    match a with
    | ⟨0, _⟩ => rfl
    | ⟨1, _⟩ => exact h1.symm
  rw [e]
  rfl

/-- What point `t` writes back is block `t` of the biased product. -/
theorem flushed_eq (c : Dev nD) (t : Fin cfg4.N) :
    (dat4 V c).flushed 3 t = ((cfg4.win 3).blk t).view.read (Elt Ideal) (biased (V c main_v60) (V c main_arg6) (V c main_v61)) := by
  show (cfg4.win 3).cut (grid4.coords t) ((dat4 V c).after 3 t) = _
  rw [after4_3]
  unfold out4_3
  rw [View.canon_unit_zero hz]
  simp only [View.ld_unit_zero (S := S10000x16) hz, View.ld_unit_zero (S := S16x1) hz, View.ld_unit_zero (S := S1x1) hz]
  obtain ⟨-, -, -, -, -, -, e6, e7⟩ := idx t
  funext y
  show k4_pay1 (iblk4 V c 0 t) (iblk4 V c 1 t) (iblk4 V c 2 t) y = biased (V c main_v60) (V c main_arg6) (V c main_v61) (((cfg4.win 3).blk t).view.emb y)
  refine point_eq V c t y _ ?_ ?_
  · show win4_3.index t 0 * 10000 + 1 * (y 0).val = t.val * 10000 + (y 0).val; rw [e6]; omega
  · show win4_3.index t 1 * 1 + 1 * (y 1).val = (y 1).val; rw [e7]; omega

/-- An index of the result is in point `t`'s block iff each coordinate is in the block's range on its axis. -/
theorem mem_blk (t : Fin cfg4.N) (i : S100000x1.Idx) :
    i ∈ ((cfg4.win 3).blk t).view.set ↔ ∀ a : Fin 2, win4_3.index t a * S10000x1.size a ≤ (i a).val ∧ (i a).val < win4_3.index t a * S10000x1.size a + S10000x1.size a := by
  show i ∈ ((View.whole main_v62).slice (win4_3.rect t)).set ↔ _
  rw [View.set_slice_whole, Rect.mem_set_unit]
  exact Iff.rfl

/-- THE RESULT of the launch: the biased product of the three arrays as the launch finds them. -/
theorem final (c : Dev nD) : (dat4 V c).arrAt 3 cfg4.N = biased (V c main_v60) (V c main_arg6) (V c main_v61) :=
  (dat4 V c).arrAt_eq_of_cover 3 _ (fun t _ => flushed_eq V c t) fun i => by
    have hi0 : (i 0).val < 100000 := (i 0).isLt
    have hi1 : (i 1).val < 1 := (i 1).isLt
    let t : Fin cfg4.N := ⟨(i 0).val / 10000, by show _ < grid4.N; rw [N_4]; omega⟩
    obtain ⟨-, -, -, -, -, -, e6, e7⟩ := idx t
    refine ⟨t, flush4_3 t, ?_⟩
    rw [mem_blk]
    intro a
    match a with
    | ⟨0, _⟩ => show win4_3.index t 0 * 10000 ≤ (i 0).val ∧ (i 0).val < win4_3.index t 0 * 10000 + 10000
                rw [e6]; show (i 0).val / 10000 * 10000 ≤ (i 0).val ∧ (i 0).val < (i 0).val / 10000 * 10000 + 10000; omega
    | ⟨1, _⟩ => show win4_3.index t 1 * 1 ≤ (i 1).val ∧ (i 1).val < win4_3.index t 1 * 1 + 1
                rw [e7]; omega

end Cert.KernelIdeal.Launch4

end
-- ==== Proof.GcnHost.lean ====
/-
  The network's host side, as functions of whole arrays over the extended reals.

  The edge list with one self loop per node appended gives every edge a source and a destination (`srcIdx`, `dstIdx`); a
  node's degree is the number of edges that end in it (`degree`), its factor the inverse square root of the degree, or
  zero for a node of degree zero (`dinv`); an edge's factor is the product of its two ends' factors (`norm`). One layer
  takes a matrix of node features: its rows are gathered along the edges' sources (`gatherRows`), every gathered row is
  multiplied by its edge's factor, the rows are added up at the edges' destinations and a bias row is added to every
  node (`aggregate`). The network is two such layers, each after a product with a weight matrix and the second after a
  maximum with zero, and a last product with a weight column plus one number (`out`).

  The gathers and the scatter sums are carried as they are printed, whole: nothing here looks inside one.
-/
import proofs.«141900_j18966575579589_2_alg».proof.Proof.Gen.KernelIdeal
import proofs.«141900_j18966575579589_2_alg».proof.Proof.LibArrayForms
import Idealize.ShloMosaic.Lib.Pipeline.Value
import Idealize.ShloMosaic.Lib.ValueIdx

noncomputable section

namespace Cert.Gcn

open Cert.KernelIdeal Cert.KernelIdeal.Gen
open Idealize.ShloMosaic Idealize.ShloMosaic.ValueIdx

/-- The edges' sources, the nodes' own numbers appended. -/
def srcIdx (e : (⟨S2x6400000, .i32⟩ : BufTy).Contents (Elt Ideal)) : (⟨S6500000, .i32⟩ : BufTy).Contents (Elt Ideal) :=
  concatenate S6500000 0 [⟨S6400000, shapeCast S6400000 (extractStridedSlice S1x6400000 ![0, 0] e slices_S2x6400000_S1x6400000_0_0) shapeCasts_S1x6400000_S6400000⟩,
    ⟨S100000, iotaInDim S100000 32 0⟩] concatenates_S6400000_S100000_S6500000_d0

/-- The edges' destinations, the nodes' own numbers appended. -/
def dstIdx (e : (⟨S2x6400000, .i32⟩ : BufTy).Contents (Elt Ideal)) : (⟨S6500000, .i32⟩ : BufTy).Contents (Elt Ideal) :=
  concatenate S6500000 0 [⟨S6400000, shapeCast S6400000 (extractStridedSlice S1x6400000 ![1, 0] e slices_S2x6400000_S1x6400000_1_0) shapeCasts_S1x6400000_S6400000⟩,
    ⟨S100000, iotaInDim S100000 32 0⟩] concatenates_S6400000_S100000_S6500000_d0

/-- A vector of node numbers as a column of gather indices, a negative number counted from the end. -/
def wrapCol (v : (⟨S6500000, .i32⟩ : BufTy).Contents (Elt Ideal)) : (⟨S6500000x1, .i32⟩ : BufTy).Contents (Elt Ideal) :=
  broadcastInDim S6500000x1 ![0] bcast_S6500000_S6500000x1_0
    (select (cmpi .slt v (broadcastInDim S6500000 ![] bcast_S_S6500000 (constantI S_ 32 0#32)))
      (addi v (broadcastInDim S6500000 ![] bcast_S_S6500000 (constantI S_ 32 100000#32))) v)

/-- A vector of node numbers as a column of scatter indices. -/
def col (v : (⟨S6500000, .i32⟩ : BufTy).Contents (Elt Ideal)) : (⟨S6500000x1, .i32⟩ : BufTy).Contents (Elt Ideal) :=
  broadcastInDim S6500000x1 ![0] bcast_S6500000_S6500000x1_0 v

/-- A node's degree: one added up at every edge's destination. -/
def degree (e : (⟨S2x6400000, .i32⟩ : BufTy).Contents (Elt Ideal)) : FVec Ideal S100000 .f32 :=
  Host.scatterAdd scatter_S100000_S6500000x1_S6500000_n_0_0_1 (broadcastInDim S100000 ![] bcast_S_S100000 (constant S_ .f32 0x00000000#32))
    (col (dstIdx e)) (broadcastInDim S6500000 ![] bcast_S_S6500000 (constant S_ .f32 0x3F800000#32))

/-- A node's factor: the inverse square root of its degree where that is positive, zero elsewhere. -/
def dinv (e : (⟨S2x6400000, .i32⟩ : BufTy).Contents (Elt Ideal)) : FVec Ideal S100000 .f32 :=
  select (cmpf .ogt (degree e) (broadcastInDim S100000 ![] bcast_S_S100000 (constant S_ .f32 0x00000000#32))) (Host.rsqrt (degree e))
    (broadcastInDim S100000 ![] bcast_S_S100000 (id (constant S_ .f32 0x00000000#32)))

/-- An edge's factor: the product of its source's and its destination's. -/
def norm (e : (⟨S2x6400000, .i32⟩ : BufTy).Contents (Elt Ideal)) : FVec Ideal S6500000 .f32 :=
  mulf (Host.gather gather_S100000_S6500000x1_S6500000_n_0_n_n_0_1_1 (dinv e) (wrapCol (srcIdx e)))
    (Host.gather gather_S100000_S6500000x1_S6500000_n_0_n_n_0_1_1 (dinv e) (wrapCol (dstIdx e)))

/-- The rows of a matrix of node features gathered along the edges' sources. -/
def gatherRows (e : (⟨S2x6400000, .i32⟩ : BufTy).Contents (Elt Ideal)) (H : FVec Ideal S100000x16 .f32) : FVec Ideal S6500000x16 .f32 :=
  Host.gather gather_S100000x16_S6500000x1_S6500000x16_1_0_n_n_0_1_116 H (wrapCol (srcIdx e))

/-- The edges' rows added up at the edges' destinations, a bias row added to every node. -/
def aggregate (e : (⟨S2x6400000, .i32⟩ : BufTy).Contents (Elt Ideal)) (M : FVec Ideal S6500000x16 .f32) (b : FVec Ideal S16 .f32) : FVec Ideal S100000x16 .f32 :=
  addf (Host.scatterAdd scatter_S100000x16_S6500000x1_S6500000x16_1_0_0_1 (broadcastInDim S100000x16 ![] bcast_S_S100000x16 (constant S_ .f32 0x00000000#32)) (col (dstIdx e)) M)
    (broadcastInDim S100000x16 ![0, 1] bcast_S1x16_S100000x16_0_1 (broadcastInDim S1x16 ![1] bcast_S16_S1x16_1 b))

/-- One layer after its product with the weights: gather, scale by the edges' factors, add up, add the bias. -/
def layer (e : (⟨S2x6400000, .i32⟩ : BufTy).Contents (Elt Ideal)) (H : FVec Ideal S100000x16 .f32) (b : FVec Ideal S16 .f32) : FVec Ideal S100000x16 .f32 :=
  aggregate e (scaleRows (norm e) (gatherRows e H)) b

/-- The network. -/
def out (x : FVec Ideal S100000x16 .f32) (e : (⟨S2x6400000, .i32⟩ : BufTy).Contents (Elt Ideal)) (W1 : FVec Ideal S16x16 .f32) (b1 : FVec Ideal S16 .f32)
    (W2 : FVec Ideal S16x16 .f32) (b2 : FVec Ideal S16 .f32) (Wl : FVec Ideal S16x1 .f32) (bl : FVec Ideal S1 .f32) : FVec Ideal S100000x1 .f32 :=
  addScalar (matProd (layer e (matProd (relu (layer e (matProd x W1) b1)) W2) b2) Wl) bl

end Cert.Gcn

end
-- ==== Proof.KernelWalk.lean ====
/-
  The idealized kernel's result, boundary by boundary.

  The program runs five launches among stretches of host operations; the contents of every buffer are known at each
  boundary between them as a fold from the launch memory. Here the fold is read at the buffers the next stretch or
  launch takes: the index vectors and the column of edge factors computed before the first launch stay as they are to
  the end (no later operation or launch writes them), each launch leaves the function of its operands that its
  module proves, and each stretch applies its host operations to what the boundary before it holds. The last boundary
  holds, at the result buffer, the network of the specification applied to the eight arguments.
-/
import proofs.«141900_j18966575579589_2_alg».proof.Proof.Gen.KernelIdeal.Frame
import proofs.«141900_j18966575579589_2_alg».proof.Proof.Launch0
import proofs.«141900_j18966575579589_2_alg».proof.Proof.Launch1
import proofs.«141900_j18966575579589_2_alg».proof.Proof.Launch2
import proofs.«141900_j18966575579589_2_alg».proof.Proof.Launch3
import proofs.«141900_j18966575579589_2_alg».proof.Proof.Launch4
import proofs.«141900_j18966575579589_2_alg».proof.Proof.GcnHost
import Idealize.ShloMosaic.Lib.StableHlo.Run

set_option maxRecDepth 16384

noncomputable section

namespace Cert.KernelIdeal.Walk

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Read a stretch of host operations at one buffer. -/
local macro "read_ops" : tactic => `(tactic| (show StableHlo.after _ _ _ = _; after_results))

/-! ## Before the first launch -/

theorem v5_1 : W1 m ρ c (Proc.devRef .tc main_v5) = srcIdx (m ((c : Thread nD τ).loc main_arg1)) := by
  read_ops; rfl
theorem v6_1 : W1 m ρ c (Proc.devRef .tc main_v6) = dstIdx (m ((c : Thread nD τ).loc main_arg1)) := by
  read_ops; rfl
theorem v12_1 : W1 m ρ c (Proc.devRef .tc main_v12) = cmpf .ogt (degree (m ((c : Thread nD τ).loc main_arg1))) (broadcastInDim S100000 ![] bcast_S_S100000 (constant S_ .f32 0x00000000#32)) := by
  read_ops; rfl
theorem v13_1 : W1 m ρ c (Proc.devRef .tc main_v13) = Host.rsqrt (degree (m ((c : Thread nD τ).loc main_arg1))) := by
  read_ops; rfl
theorem cst2_1 : W1 m ρ c (Proc.devRef .tc main_cst_2) = constant (F := Ideal) S_ .f32 0x00000000#32 := by
  read_ops

/-- The call that picks the factor, over any contents it is entered with: a select between the inverse square root
    and a stretched zero, read off the call's three operations. -/
theorem where_of (V : Valuation τ sig (Elt Ideal)) :
    (StableHlo.after hostOps0_1 V (Proc.devRef .tc main_v14) : FVec Ideal S100000 .f32)
      = select (V (Proc.devRef .tc main_v12) : IVec S100000 1) (V (Proc.devRef .tc main_v13) : FVec Ideal S100000 .f32)
          (broadcastInDim S100000 ![] bcast_S_S100000 (id (V (Proc.devRef .tc main_cst_2) : FVec Ideal S_ .f32))) := rfl
theorem v14_2 : W2 m ρ c (Proc.devRef .tc main_v14) = dinv (m ((c : Thread nD τ).loc main_arg1)) := by
  rw [show W2 m ρ c (Proc.devRef .tc main_v14) = StableHlo.after hostOps0_1 (W1 m ρ c) (Proc.devRef .tc main_v14) from rfl, where_of, v12_1, v13_1, cst2_1]
  rfl
theorem v5_2 : W2 m ρ c (Proc.devRef .tc main_v5) = srcIdx (m ((c : Thread nD τ).loc main_arg1)) := by
  read_ops; exact v5_1 m ρ c
theorem v6_2 : W2 m ρ c (Proc.devRef .tc main_v6) = dstIdx (m ((c : Thread nD τ).loc main_arg1)) := by
  read_ops; exact v6_1 m ρ c

theorem v5_3 : W3 m ρ c (Proc.devRef .tc main_v5) = srcIdx (m ((c : Thread nD τ).loc main_arg1)) := by
  read_ops; exact v5_2 m ρ c
theorem v6_3 : W3 m ρ c (Proc.devRef .tc main_v6) = dstIdx (m ((c : Thread nD τ).loc main_arg1)) := by
  read_ops; exact v6_2 m ρ c
set_option maxHeartbeats 4000000 in
/-- The stretch that computes the edges' factors, over any contents it is entered with. -/
theorem factors_of (V : Valuation τ sig (Elt Ideal)) :
    (StableHlo.after hostOps0_2 V (Proc.devRef .tc main_v30) : FVec Ideal S6500000x1 .f32)
      = shapeCast S6500000x1 (mulf (F := Ideal) (φ := .f32) (Host.gather gather_S100000_S6500000x1_S6500000_n_0_n_n_0_1_1 (V (Proc.devRef .tc main_v14) : FVec Ideal S100000 .f32) (wrapCol (V (Proc.devRef .tc main_v5))))
          (Host.gather gather_S100000_S6500000x1_S6500000_n_0_n_n_0_1_1 (V (Proc.devRef .tc main_v14) : FVec Ideal S100000 .f32) (wrapCol (V (Proc.devRef .tc main_v6))))) shapeCasts_S6500000_S6500000x1 := by
  after_results_simp
  rfl
theorem v30_3 : W3 m ρ c (Proc.devRef .tc main_v30) = shapeCast S6500000x1 (norm (m ((c : Thread nD τ).loc main_arg1))) shapeCasts_S6500000_S6500000x1 := by
  rw [show W3 m ρ c (Proc.devRef .tc main_v30) = StableHlo.after hostOps0_2 (W2 m ρ c) (Proc.devRef .tc main_v30) from rfl, factors_of, v14_2, v5_2, v6_2]
  rfl

/-! ## The arguments, the index vectors and the column of factors at the later boundaries -/

theorem arg0_3 : W3 m ρ c (Proc.devRef .tc main_arg0) = (m ((c : Thread nD τ).loc main_arg0)) := by
  read_ops
  try rfl

theorem arg2_3 : W3 m ρ c (Proc.devRef .tc main_arg2) = (m ((c : Thread nD τ).loc main_arg2)) := by
  read_ops
  try rfl

theorem arg3_6 : W6 m ρ c (Proc.devRef .tc main_arg3) = (m ((c : Thread nD τ).loc main_arg3)) := by
  rw [W6_of_ne m ρ c main_arg3 (by decide)]
  read_ops
  rw [W4_of_ne m ρ c main_arg3 (by decide)]
  read_ops
  try rfl

theorem arg4_7 : W7 m ρ c (Proc.devRef .tc main_arg4) = (m ((c : Thread nD τ).loc main_arg4)) := by
  read_ops
  rw [W6_of_ne m ρ c main_arg4 (by decide)]
  read_ops
  rw [W4_of_ne m ρ c main_arg4 (by decide)]
  read_ops
  try rfl

theorem arg5_10 : W10 m ρ c (Proc.devRef .tc main_arg5) = (m ((c : Thread nD τ).loc main_arg5)) := by
  rw [W10_of_ne m ρ c main_arg5 (by decide)]
  read_ops
  rw [W8_of_ne m ρ c main_arg5 (by decide)]
  read_ops
  rw [W6_of_ne m ρ c main_arg5 (by decide)]
  read_ops
  rw [W4_of_ne m ρ c main_arg5 (by decide)]
  read_ops
  try rfl

theorem arg7_10 : W10 m ρ c (Proc.devRef .tc main_arg7) = (m ((c : Thread nD τ).loc main_arg7)) := by
  rw [W10_of_ne m ρ c main_arg7 (by decide)]
  read_ops
  rw [W8_of_ne m ρ c main_arg7 (by decide)]
  read_ops
  rw [W6_of_ne m ρ c main_arg7 (by decide)]
  read_ops
  rw [W4_of_ne m ρ c main_arg7 (by decide)]
  read_ops
  try rfl

theorem arg6_11 : W11 m ρ c (Proc.devRef .tc main_arg6) = (m ((c : Thread nD τ).loc main_arg6)) := by
  read_ops
  rw [W10_of_ne m ρ c main_arg6 (by decide)]
  read_ops
  rw [W8_of_ne m ρ c main_arg6 (by decide)]
  read_ops
  rw [W6_of_ne m ρ c main_arg6 (by decide)]
  read_ops
  rw [W4_of_ne m ρ c main_arg6 (by decide)]
  read_ops
  try rfl

theorem v5_4 : W4 m ρ c (Proc.devRef .tc main_v5) = srcIdx (m ((c : Thread nD τ).loc main_arg1)) := by
  rw [W4_of_ne m ρ c main_v5 (by decide)]
  exact v5_3 m ρ c

theorem v5_8 : W8 m ρ c (Proc.devRef .tc main_v5) = srcIdx (m ((c : Thread nD τ).loc main_arg1)) := by
  rw [W8_of_ne m ρ c main_v5 (by decide)]
  read_ops
  rw [W6_of_ne m ρ c main_v5 (by decide)]
  read_ops
  rw [W4_of_ne m ρ c main_v5 (by decide)]
  exact v5_3 m ρ c

theorem v6_6 : W6 m ρ c (Proc.devRef .tc main_v6) = dstIdx (m ((c : Thread nD τ).loc main_arg1)) := by
  rw [W6_of_ne m ρ c main_v6 (by decide)]
  read_ops
  rw [W4_of_ne m ρ c main_v6 (by decide)]
  exact v6_3 m ρ c

theorem v6_10 : W10 m ρ c (Proc.devRef .tc main_v6) = dstIdx (m ((c : Thread nD τ).loc main_arg1)) := by
  rw [W10_of_ne m ρ c main_v6 (by decide)]
  read_ops
  rw [W8_of_ne m ρ c main_v6 (by decide)]
  read_ops
  rw [W6_of_ne m ρ c main_v6 (by decide)]
  read_ops
  rw [W4_of_ne m ρ c main_v6 (by decide)]
  exact v6_3 m ρ c

theorem v30_5 : W5 m ρ c (Proc.devRef .tc main_v30) = shapeCast S6500000x1 (norm (m ((c : Thread nD τ).loc main_arg1))) shapeCasts_S6500000_S6500000x1 := by
  read_ops
  rw [W4_of_ne m ρ c main_v30 (by decide)]
  exact v30_3 m ρ c

theorem v30_9 : W9 m ρ c (Proc.devRef .tc main_v30) = shapeCast S6500000x1 (norm (m ((c : Thread nD τ).loc main_arg1))) shapeCasts_S6500000_S6500000x1 := by
  read_ops
  rw [W8_of_ne m ρ c main_v30 (by decide)]
  read_ops
  rw [show W6 m ρ c (Proc.devRef .tc main_v30) = W5 m ρ c (Proc.devRef .tc main_v30) from (W6_arr m ρ c 1).trans (((dat1 (V5 m ρ) c).arrAt_in 1 rfl _).trans (A_eq1 (V5 m ρ) c 1))]
  read_ops
  rw [W4_of_ne m ρ c main_v30 (by decide)]
  exact v30_3 m ρ c

/-! ## The first layer -/

/-- The first launch leaves the features times the first weights. -/
theorem v31_4 : W4 m ρ c (Proc.devRef .tc main_v31) = (matProd (m ((c : Thread nD τ).loc main_arg0)) (m ((c : Thread nD τ).loc main_arg2))) := by
  refine ((W4_arr m ρ c 2).trans (Launch0.final (V3 m ρ) c)).trans ?_
  show matProd (W3 m ρ c (Proc.devRef .tc main_arg0)) (W3 m ρ c (Proc.devRef .tc main_arg2)) = _
  rw [arg0_3, arg2_3]

/-- Its rows gathered along the edges' sources. -/
theorem v38_5 : W5 m ρ c (Proc.devRef .tc main_v38) = gatherRows (m ((c : Thread nD τ).loc main_arg1)) (matProd (m ((c : Thread nD τ).loc main_arg0)) (m ((c : Thread nD τ).loc main_arg2))) := by
  read_ops
  rw [v31_4, v5_4]
  rfl

/-- The second launch scales every gathered row by its edge's factor. -/
theorem v39_6 : W6 m ρ c (Proc.devRef .tc main_v39) = scaleRows (norm (m ((c : Thread nD τ).loc main_arg1))) (gatherRows (m ((c : Thread nD τ).loc main_arg1)) (matProd (m ((c : Thread nD τ).loc main_arg0)) (m ((c : Thread nD τ).loc main_arg2)))) := by
  refine ((W6_arr m ρ c 2).trans (Launch1.final (V5 m ρ) c)).trans ?_
  show Launch1.scaled (W5 m ρ c (Proc.devRef .tc main_v38)) (W5 m ρ c (Proc.devRef .tc main_v30)) = _
  rw [v38_5, v30_5]
  exact colScale shapeCasts_S6500000_S6500000x1 (norm (m ((c : Thread nD τ).loc main_arg1))) _

/-- Added up at the destinations, plus the bias: the first layer. -/
theorem v45_7 : W7 m ρ c (Proc.devRef .tc main_v45) = (layer (m ((c : Thread nD τ).loc main_arg1)) (matProd (m ((c : Thread nD τ).loc main_arg0)) (m ((c : Thread nD τ).loc main_arg2))) (m ((c : Thread nD τ).loc main_arg3))) := by
  read_ops
  rw [v39_6, v6_6, arg3_6]
  rfl

/-! ## The second layer -/

/-- The third launch leaves the first layer, floored at zero, times the second weights. -/
theorem v46_8 : W8 m ρ c (Proc.devRef .tc main_v46) = (matProd (relu (layer (m ((c : Thread nD τ).loc main_arg1)) (matProd (m ((c : Thread nD τ).loc main_arg0)) (m ((c : Thread nD τ).loc main_arg2))) (m ((c : Thread nD τ).loc main_arg3)))) (m ((c : Thread nD τ).loc main_arg4))) := by
  refine ((W8_arr m ρ c 2).trans (Launch2.final (V7 m ρ) c)).trans ?_
  show matProd (relu (W7 m ρ c (Proc.devRef .tc main_v45))) (W7 m ρ c (Proc.devRef .tc main_arg4)) = _
  rw [v45_7, arg4_7]

theorem v53_9 : W9 m ρ c (Proc.devRef .tc main_v53) = gatherRows (m ((c : Thread nD τ).loc main_arg1)) (matProd (relu (layer (m ((c : Thread nD τ).loc main_arg1)) (matProd (m ((c : Thread nD τ).loc main_arg0)) (m ((c : Thread nD τ).loc main_arg2))) (m ((c : Thread nD τ).loc main_arg3)))) (m ((c : Thread nD τ).loc main_arg4))) := by
  read_ops
  rw [v46_8, v5_8]
  rfl

theorem v54_10 : W10 m ρ c (Proc.devRef .tc main_v54) = scaleRows (norm (m ((c : Thread nD τ).loc main_arg1))) (gatherRows (m ((c : Thread nD τ).loc main_arg1)) (matProd (relu (layer (m ((c : Thread nD τ).loc main_arg1)) (matProd (m ((c : Thread nD τ).loc main_arg0)) (m ((c : Thread nD τ).loc main_arg2))) (m ((c : Thread nD τ).loc main_arg3)))) (m ((c : Thread nD τ).loc main_arg4)))) := by
  refine ((W10_arr m ρ c 2).trans (Launch3.final (V9 m ρ) c)).trans ?_
  show Launch3.scaled (W9 m ρ c (Proc.devRef .tc main_v53)) (W9 m ρ c (Proc.devRef .tc main_v30)) = _
  rw [v53_9, v30_9]
  exact colScale shapeCasts_S6500000_S6500000x1 (norm (m ((c : Thread nD τ).loc main_arg1))) _

theorem v60_11 : W11 m ρ c (Proc.devRef .tc main_v60) = (layer (m ((c : Thread nD τ).loc main_arg1)) (matProd (relu (layer (m ((c : Thread nD τ).loc main_arg1)) (matProd (m ((c : Thread nD τ).loc main_arg0)) (m ((c : Thread nD τ).loc main_arg2))) (m ((c : Thread nD τ).loc main_arg3)))) (m ((c : Thread nD τ).loc main_arg4))) (m ((c : Thread nD τ).loc main_arg5))) := by
  read_ops
  rw [v54_10, v6_10, arg5_10]
  rfl

/-- The head's bias as a 1 x 1 matrix. -/
theorem v61_11 : W11 m ρ c (Proc.devRef .tc main_v61) = shapeCast S1x1 (m ((c : Thread nD τ).loc main_arg7)) shapeCasts_S1_S1x1 := by
  read_ops
  rw [arg7_10]
  rfl

/-! ## The head -/

/-- THE RESULT: the last boundary holds, at the result buffer, the network of the arguments. -/
theorem result : W12 m ρ c (Proc.devRef .tc main_v62)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W12_arr m ρ c 3).trans (Launch4.final (V11 m ρ) c)).trans ?_
  show Launch4.biased (W11 m ρ c (Proc.devRef .tc main_v60)) (W11 m ρ c (Proc.devRef .tc main_arg6)) (W11 m ρ c (Proc.devRef .tc main_v61)) = _
  rw [v60_11, arg6_11, v61_11]
  exact cellBias shapeCasts_S1_S1x1 _ (m ((c : Thread nD τ).loc main_arg7))

end Cert.KernelIdeal.Walk

end
-- ==== Proof.RefValue.lean ====
/-
  The reference's result is the network of the specification.

  The reference's run ends with its result at one composed term of the arguments: the same host operations as the
  specification's, the products, the scaling by the edges' factors, the maximum with zero and the last bias in the
  host's spelling. Rewriting those four forms into the specification's functions leaves the specification's term
  (the forms are matched up to the unfolding of the element type of a buffer, which the plain rewriting does not do).
-/
import proofs.«141900_j18966575579589_2_alg».proof.Proof.RefRunPatched
import proofs.«141900_j18966575579589_2_alg».proof.Proof.GcnHost

noncomputable section

namespace Cert.ReferenceIdeal.RefValue

open Cert.ReferenceIdeal Cert.ReferenceIdeal.Gen Cert.ReferenceIdeal.ValueP
open Idealize.ShloMosaic Idealize.ShloMosaic.TcCoe Idealize.SL.Sem

/-- The host's product of a node-feature matrix with a 16 x 16 weight matrix. -/
theorem dot16 (X : FVec Ideal S100000x16 .f32) (W : FVec Ideal S16x16 .f32) :
    Host.dotGeneral dot_S100000x16_S16x16_S100000x16_1_0_0_1_n_n none X W = Cert.Gcn.matProd X W :=
  Cert.Gcn.hostDot dot_S100000x16_S16x16_S100000x16_1_0_0_1_n_n rfl rfl rfl rfl (fun _ _ => rfl) (fun _ _ => rfl) X W

/-- The host's product of a node-feature matrix with the 16 x 1 weight column. -/
theorem dot1 (X : FVec Ideal S100000x16 .f32) (W : FVec Ideal S16x1 .f32) :
    Host.dotGeneral dot_S100000x16_S16x1_S100000x1_1_0_0_1_n_n none X W = Cert.Gcn.matProd X W :=
  Cert.Gcn.hostDot dot_S100000x16_S16x1_S100000x1_1_0_0_1_n_n rfl rfl rfl rfl (fun _ _ => rfl) (fun _ _ => rfl) X W

/-- The edges' factors stretched along the gathered rows and multiplied in. -/
theorem scale (f : FVec Ideal S6500000 .f32) (G : FVec Ideal S6500000x16 .f32) :
    mulf (broadcastInDim S6500000x16 ![0, 1] bcast_S6500000x1_S6500000x16_0_1 (broadcastInDim S6500000x1 ![0] bcast_S6500000_S6500000x1_0 f)) G
      = Cert.Gcn.scaleRows f G :=
  Cert.Gcn.hostScale bcast_S6500000_S6500000x1_0 bcast_S6500000x1_S6500000x16_0_1 f G

/-- The maximum with zero. -/
theorem floor0 (M : FVec Ideal S100000x16 .f32) :
    maximumf M (broadcastInDim S100000x16 ![] bcast_S_S100000x16 (constant (F := Ideal) S_ .f32 0x00000000#32)) = Cert.Gcn.relu M :=
  Cert.Gcn.hostRelu bcast_S_S100000x16 M

/-- The head's one-number bias. -/
theorem bias1 (M : FVec Ideal S100000x1 .f32) (b : FVec Ideal S1 .f32) :
    addf M (broadcastInDim S100000x1 ![0, 1] bcast_S1x1_S100000x1_0_1 (broadcastInDim S1x1 ![1] bcast_S1_S1x1_1 b)) = Cert.Gcn.addScalar M b :=
  Cert.Gcn.hostBias bcast_S1_S1x1_1 bcast_S1x1_S100000x1_0_1 M b

set_option maxRecDepth 16384 in
set_option maxHeartbeats 1000000 in
/-- THE RESULT: the reference's composed term is the network of the arguments. -/
theorem result (m : (ℓ : Loc nD τ sig) → Buf (Elt Ideal) ℓ) (c : Dev nD) :
    res_main_v94 (F := Ideal) m c
      = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold res_main_v94
  simp only [dot16, dot1]
  erw [bias1, scale, scale, floor0]
  rfl

end Cert.ReferenceIdeal.RefValue

end
-- ==== Proof.lean ====
/-
  A two-layer graph-convolution network with a linear head: the kernel's program against the reference, over the
  extended reals.

  Both programs normalise the edge list (every node given a self loop) by the inverse square roots of the nodes'
  degrees, and in each of two layers multiply the node features by a weight matrix, gather the rows along the edges'
  sources, scale every gathered row by its edge's factor, add the rows up at the edges' destinations and add a bias;
  the second layer takes the first's output floored at zero, and a last product with a weight column plus one number
  gives the result. The kernel's program computes the three products, the two scalings and the last bias in five
  launches over blocks of rows, the gathers and the sums on the host between them; the reference computes everything
  on the host. A block product is rows of the whole product, the narrowing of a product's operands to a shorter
  float format is the identity on the extended reals, and the factor multiplied from the right in the launches and
  from the left on the host is the same scaling because multiplication commutes; the gathers and the sums are the
  same operations applied to equal arrays. No law used needs the inputs finite.

  The kernel's run is read at its last boundary (KernelRun, KernelWalk over the five launches' modules), the
  reference's at its composed term (RefRunPatched, RefValue); both are the one function `Cert.Gcn.out` of the
  arguments (LibArrayForms, GcnHost).
-/
import proofs.«141900_j18966575579589_2_alg».proof.Defs
import proofs.«141900_j18966575579589_2_alg».proof.Proof.Gen.Kernel
import proofs.«141900_j18966575579589_2_alg».proof.Proof.Gen.Kernel.Skeleton
import proofs.«141900_j18966575579589_2_alg».proof.Proof.Gen.Kernel.Launch
import proofs.«141900_j18966575579589_2_alg».proof.Proof.Gen.Kernel.Points
import proofs.«141900_j18966575579589_2_alg».proof.Proof.Gen.Kernel.Frame
import proofs.«141900_j18966575579589_2_alg».proof.Proof.Gen.KernelIdeal
import proofs.«141900_j18966575579589_2_alg».proof.Proof.Gen.KernelIdeal.Skeleton
import proofs.«141900_j18966575579589_2_alg».proof.Proof.Gen.KernelIdeal.Launch
import proofs.«141900_j18966575579589_2_alg».proof.Proof.Gen.KernelIdeal.Points
import proofs.«141900_j18966575579589_2_alg».proof.Proof.Gen.KernelIdeal.Frame
import proofs.«141900_j18966575579589_2_alg».proof.Proof.Gen.ReferenceIdeal
import proofs.«141900_j18966575579589_2_alg».proof.Proof.Gen.Pre_finite_inputs
import proofs.«141900_j18966575579589_2_alg».proof.Proof.KernelRun
import proofs.«141900_j18966575579589_2_alg».proof.Proof.KernelWalk
import proofs.«141900_j18966575579589_2_alg».proof.Proof.RefRunPatched
import proofs.«141900_j18966575579589_2_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the network of the specification applied to the arguments, which agree. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Walk.result m ρ c), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.RefValue.result m' c, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
